-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64 .f32) (main_arg6 : FVec F S64x40 .f32) (main_arg7 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x40 : Shape := ⟨2, ![100000, 40]⟩
abbrev S10000x40 : Shape := ⟨2, ![10000, 40]⟩
abbrev S1700000x40 : Shape := ⟨2, ![1700000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 106
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S1700000x1, .f32⟩
  | .hbm, ⟨52, _⟩ => ⟨S100000x64, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x64, .f32⟩
  | .hbm, ⟨62, _⟩ => ⟨S1700000x64, .f32⟩
  | .hbm, ⟨63, _⟩ => ⟨S1700000x64, .f32⟩
  | .hbm, ⟨64, _⟩ => ⟨S_, .f32⟩
  | .hbm, ⟨65, _⟩ => ⟨S100000x64, .f32⟩
  | .hbm, ⟨66, _⟩ => ⟨S1700000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x64, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x40, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x40, .f32⟩
  | .hbm, ⟨98, _⟩ => ⟨S1700000x40, .f32⟩
  | .hbm, ⟨99, _⟩ => ⟨S1700000x40, .f32⟩
  | .hbm, ⟨100, _⟩ => ⟨S_, .f32⟩
  | .hbm, ⟨101, _⟩ => ⟨S100000x40, .f32⟩
  | .hbm, ⟨102, _⟩ => ⟨S1700000x1, .i32⟩
  | .hbm, ⟨103, _⟩ => ⟨S100000x40, .f32⟩
  | .hbm, ⟨104, _⟩ => ⟨S1x40, .f32⟩
  | .hbm, ⟨105, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x40, .f32⟩
  | .local _ .vmem, ⟨23, _⟩ => ⟨S10000x40, .f32⟩
  | .local _ .vmem, ⟨24, _⟩ => ⟨S10000x40, .f32⟩
  | .local _ .vmem, ⟨25, _⟩ => ⟨S10000x40, .f32⟩
  | .local _ .vmem, ⟨26, _⟩ => ⟨S10000x40, .f32⟩
  | .local _ .vmem, ⟨27, _⟩ => ⟨S1x40, .f32⟩
  | .local _ .vmem, ⟨28, _⟩ => ⟨S10000x40, .f32⟩
  | .local _ .vmem, ⟨29, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x40_S10000x40_1_0_0_1_n_n_wf : DotDims.WF S10000x64 S64x40 S10000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x40.size a ≤ S64x40.size a
  hwx4_1 : ∀ i : grid4.Coords, EltTy.bits .f32 = 32 ∨ (Rect.block (s := S64x40) S64x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x40.size a ≤ S100000x40.size a
  hwx4_2 : ∀ i : grid4.Coords, EltTy.bits .f32 = 32 ∨ (Rect.block (s := S100000x40) S10000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x40.size a ≤ S100000x40.size a
  hwx5_0 : ∀ i : grid5.Coords, EltTy.bits .f32 = 32 ∨ (Rect.block (s := S100000x40) S10000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x40.size a ≤ S100000x40.size a
  hwx5_2 : ∀ i : grid5.Coords, EltTy.bits .f32 = 32 ∨ (Rect.block (s := S100000x40) S10000x40.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S10000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S10000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S10000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 142
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x40, .f32⟩
  | 7 => ⟨S40, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S1700000x1, .f32⟩
  | 52 => ⟨S100000x64, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x64, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64, .f32⟩
  | 69 => ⟨S100000x64, .f32⟩
  | 70 => ⟨S100000x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S100000x64, .f32⟩
  | 80 => ⟨S100000x64, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000x64, .f32⟩
  | 90 => ⟨S1700000x64, .f32⟩
  | 91 => ⟨S1700000x64, .f32⟩
  | 92 => ⟨S_, .f32⟩
  | 93 => ⟨S100000x64, .f32⟩
  | 94 => ⟨S1700000x1, .i32⟩
  | 95 => ⟨S100000x64, .f32⟩
  | 96 => ⟨S1x64, .f32⟩
  | 97 => ⟨S100000x64, .f32⟩
  | 98 => ⟨S100000x64, .f32⟩
  | 99 => ⟨S100000x64, .f32⟩
  | 100 => ⟨S100000x64, .f32⟩
  | 101 => ⟨S_, .f32⟩
  | 102 => ⟨S100000x64, .f32⟩
  | 103 => ⟨S100000x64, .f32⟩
  | 104 => ⟨S_, .f32⟩
  | 105 => ⟨S100000x64, .f32⟩
  | 106 => ⟨S100000x64, .f32⟩
  | 107 => ⟨S100000x64, .f32⟩
  | 108 => ⟨S100000x40, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x40, .f32⟩
  | 118 => ⟨S1700000x40, .f32⟩
  | 119 => ⟨S1700000x40, .f32⟩
  | 120 => ⟨S_, .f32⟩
  | 121 => ⟨S100000x40, .f32⟩
  | 122 => ⟨S1700000x1, .i32⟩
  | 123 => ⟨S100000x40, .f32⟩
  | 124 => ⟨S1x40, .f32⟩
  | 125 => ⟨S100000x40, .f32⟩
  | 126 => ⟨S100000x40, .f32⟩
  | 127 => ⟨S_, .f32⟩
  | _ => ⟨S100000x128, .f32⟩

abbrev hbmTy0_1 (i : Nat) : BufTy := match i % 128 with
  | 0 => ⟨S100000, .f32⟩
  | 1 => ⟨S_, .f32⟩
  | 2 => ⟨S100000, .f32⟩
  | 3 => ⟨S100000, .f32⟩
  | 4 => ⟨S100000x1, .f32⟩
  | 5 => ⟨S100000x40, .f32⟩
  | 6 => ⟨S100000x40, .f32⟩
  | 7 => ⟨S100000x40, .f32⟩
  | 8 => ⟨S_, .f32⟩
  | 9 => ⟨S100000, .f32⟩
  | 10 => ⟨S100000x1, .f32⟩
  | 11 => ⟨S100000x1, .f32⟩
  | 12 => ⟨S100000x40, .f32⟩
  | 13 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_12 : Ref sig .tc := ⟨.hbm, 81, rfl⟩
abbrev main_v57 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_c_17 : Ref sig .tc := ⟨.hbm, 109, rfl⟩
abbrev main_v80 : Ref sig .tc := ⟨.hbm, 110, rfl⟩
abbrev main_v81 : Ref sig .tc := ⟨.hbm, 111, rfl⟩
abbrev main_c_18 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_19 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_call1_cst : Ref sig .tc := ⟨.hbm, 127, rfl⟩
abbrev main_call1_v0 : Ref sig .tc := ⟨.hbm, 128, rfl⟩
abbrev main_call1_cst_0 : Ref sig .tc := ⟨.hbm, 129, rfl⟩
abbrev main_call1_v1 : Ref sig .tc := ⟨.hbm, 130, rfl⟩
abbrev main_call1_v2 : Ref sig .tc := ⟨.hbm, 131, rfl⟩
abbrev main_call1_v3 : Ref sig .tc := ⟨.hbm, 132, rfl⟩
abbrev main_call1_v4 : Ref sig .tc := ⟨.hbm, 133, rfl⟩
abbrev main_call1_v5 : Ref sig .tc := ⟨.hbm, 134, rfl⟩
abbrev main_call1_v6 : Ref sig .tc := ⟨.hbm, 135, rfl⟩
abbrev main_call1_cst_1 : Ref sig .tc := ⟨.hbm, 136, rfl⟩
abbrev main_call1_v7 : Ref sig .tc := ⟨.hbm, 137, rfl⟩
abbrev main_call1_v8 : Ref sig .tc := ⟨.hbm, 138, rfl⟩
abbrev main_call1_v9 : Ref sig .tc := ⟨.hbm, 139, rfl⟩
abbrev main_call1_v10 : Ref sig .tc := ⟨.hbm, 140, rfl⟩
abbrev main_v95 : Ref sig .tc := ⟨.hbm, 141, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.LibHostLineCut.lean ====
/-
  Reading what a long straight line of host operations leaves in a buffer, a piece at a time.

  `StableHlo.after ops V` is what the buffers hold once the operations `ops` have run in order from contents `V`.
  A stage of a long line may have several consumers, and then the line's composed term repeats it once per consumer.
  Two facts let the line be read in pieces, each stated over the stages before it as variables:

  * `after_cut`: the line run from `V` is its tail after the first `n` operations, run from what those first `n`
    leave (`after_append`: two lines one after the other are their concatenation). So a long line is read in
    stretches, each from ARBITRARY contents that satisfy what the earlier stretches established, and no stretch
    inlines an earlier one.
  * `ofBuf_toBuf` / `toBuf_ofBuf`: the operations of a called function are printed over TYPED references, each value
    written to its buffer through `TRef.toBuf` and read back through `TRef.ofBuf` — transports along the buffer's
    type equation. A value written through a typed reference and read back through the same reference is the value.
    This holds for every typed reference, by its type equation alone, so every inner write/read pair of a stretch
    cancels, whatever the buffer, and only the first read and the last write of the stretch stay in its statement.

  Nothing here depends on a program: any topology, reference signature and element interpretation.
-/
import Idealize.ShloMosaic.Lib.StableHlo.Run

noncomputable section

namespace Cert.Lib.HostLineCut

open Idealize.ShloMosaic Idealize.ShloMosaic.StableHlo

variable {τ : Topo} {sig : RefSig} {Val : EltTy → Type}

/-- Running two lines one after the other is running their concatenation. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- A line cut after its first `n` operations. -/
theorem after_cut (n : ℕ) (l : List (HloOp τ sig Val)) (V : Valuation τ sig Val) :
    StableHlo.after l V = StableHlo.after (l.drop n) (StableHlo.after (l.take n) V) := by
  rw [← after_append, List.take_append_drop]

/-- Contents written through a typed reference and read back through it are the contents. -/
theorem ofBuf_toBuf {T : BufTy} (x : TRef sig T) (v : T.Contents Val) : x.ofBuf (x.toBuf v) = v := by
  obtain ⟨r, h, hd, hu⟩ := x
  subst h
  rfl

/-- Contents read through a typed reference and written back through it are the contents. -/
theorem toBuf_ofBuf {T : BufTy} (x : TRef sig T) (v : x.ref.ty.Contents Val) : x.toBuf (x.ofBuf v) = v := by
  obtain ⟨r, h, hd, hu⟩ := x
  subst h
  rfl

end Cert.Lib.HostLineCut

end
-- ==== Proof.RefRun.lean ====
/-
  The reference program's run, with its result named.

  The reference is one straight line of 134 host operations. Its first 44 build, from the edge list alone, the
  edges' sources and targets with the self-loops appended and the edge normalisation; the other 90 are the three
  layers (matrix product, gather, scale, scatter-add, bias, nonlinearity). Every weakly fair execution runs the
  line to its end, and each buffer then holds what the operations, applied in order to the launch contents, leave
  in it. The result buffer is read in three steps so that no stage is written out more than once: after the first
  44 operations the three edge arrays are the stage functions `val_main_v3`, `val_main_v6`, `val_main_v32` of the
  edge list and the arguments are untouched; from ANY contents with those facts the next 75 operations leave the
  biased third layer at the stage function `val_main_v94`, and from any contents holding that the last 15 (the row-wise
  log-softmax, printed as a called function: each of its values is written and read through its buffer's typed reference)
  leave the result buffer at the stage function `val_main_v95` of the arguments. A value written through a typed reference
  and read back through it is the value, so the inner transports cancel.
-/
import proofs.«106903_j8074538516509_1_alg».proof.Proof.RunP
import proofs.«106903_j8074538516509_1_alg».proof.Proof.ReadP
import proofs.«106903_j8074538516509_1_alg».proof.Proof.LibHostLineCut

set_option maxRecDepth 16384

noncomputable section

namespace Cert.ReferenceIdeal.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo
open Cert.Lib.HostLineCut

variable {F : FTy → Type} [FloatOps F]

section Stages

variable (X : Valuation τ sig (Elt F))

/-! ### The first 44 operations -/

theorem pre_v3 : StableHlo.after ((ops (F := F)).take 44) X (Proc.devRef .tc main_v3) = val_main_v3 (F := F) (X (Proc.devRef .tc main_arg1)) := by
  simp only [ops, List.take_succ_cons, List.take_zero]
  after_results_simp <;> rfl

theorem pre_v6 : StableHlo.after ((ops (F := F)).take 44) X (Proc.devRef .tc main_v6) = val_main_v6 (F := F) (X (Proc.devRef .tc main_arg1)) := by
  simp only [ops, List.take_succ_cons, List.take_zero]
  after_results_simp <;> rfl

theorem pre_v32 : StableHlo.after ((ops (F := F)).take 44) X (Proc.devRef .tc main_v32) = val_main_v32 (F := F) (X (Proc.devRef .tc main_arg1)) := by
  simp only [ops, List.take_succ_cons, List.take_zero]
  after_results_simp <;> rfl

theorem pre_keep (b : Ref sig .tc) (hb : b = main_arg0 ∨ b = main_arg1 ∨ b = main_arg2 ∨ b = main_arg3 ∨ b = main_arg4 ∨ b = main_arg5 ∨ b = main_arg6 ∨ b = main_arg7) :
    StableHlo.after ((ops (F := F)).take 44) X (Proc.devRef .tc b) = X (Proc.devRef .tc b) := by
  simp only [ops, List.take_succ_cons, List.take_zero]
  rcases hb with rfl | rfl | rfl | rfl | rfl | rfl | rfl | rfl <;> after_results_simp

/-! ### The last 90 operations, from contents that hold the edge arrays and the arguments -/

set_option maxHeartbeats 40000000 in
/-- Operations 45 to 119: the three layers up to the last bias, from contents that hold the edge arrays and the arguments. -/
theorem mid_v94 (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x40, .f32⟩ : BufTy).Contents (Elt F)) (x7 : (⟨S40, .f32⟩ : BufTy).Contents (Elt F))
    (h3 : X (Proc.devRef .tc main_v3) = val_main_v3 (F := F) x1) (h6 : X (Proc.devRef .tc main_v6) = val_main_v6 (F := F) x1)
    (h32 : X (Proc.devRef .tc main_v32) = val_main_v32 (F := F) x1)
    (ha0 : X (Proc.devRef .tc main_arg0) = x0) (ha2 : X (Proc.devRef .tc main_arg2) = x2) (ha3 : X (Proc.devRef .tc main_arg3) = x3)
    (ha4 : X (Proc.devRef .tc main_arg4) = x4) (ha5 : X (Proc.devRef .tc main_arg5) = x5) (ha6 : X (Proc.devRef .tc main_arg6) = x6)
    (ha7 : X (Proc.devRef .tc main_arg7) = x7) :
    StableHlo.after (((ops (F := F)).drop 44).take 75) X (Proc.devRef .tc main_v94) = val_main_v94 (F := F) x0 x1 x2 x3 x4 x5 x6 x7 := by
  simp only [ops, List.drop_succ_cons, List.drop_zero, List.take_succ_cons, List.take_zero]
  after_results_simp
  simp only [h3, h6, h32, ha0, ha2, ha3, ha4, ha5, ha6, ha7]
  rfl

/-- A row's entries minus the row's maximum (the maximum folded from `-∞` and taken once more with `-∞`), as the
    reference's operations spell it. -/
def shiftedOf (A : (⟨S100000x40, .f32⟩ : BufTy).Contents (Elt F)) : (⟨S100000x40, .f32⟩ : BufTy).Contents (Elt F) :=
  subf A (broadcastInDim S100000x40 ![0, 1] bcast_S100000x1_S100000x40_0_1
    (broadcastInDim S100000x1 ![0] bcast_S100000_S100000x1_0
      (maximumf (broadcastInDim S100000 ![] bcast_S_S100000 (constant (F := F) S_ .f32 0xFF800000#32))
        (Host.reduce FloatOps.maximumf A (constant (F := F) S_ .f32 0xFF800000#32) reducesTo_S100000x40_S100000_d1 h_S_))))

/-- The row-wise log-softmax of `A`, as the reference's fifteen operations spell it:
    `(A - max) - log (∑ exp (A - max))`, the row statistics kept as columns and spread over the lanes. -/
def lsmOf (A : (⟨S100000x40, .f32⟩ : BufTy).Contents (Elt F)) : (⟨S100000x40, .f32⟩ : BufTy).Contents (Elt F) :=
  subf (shiftedOf A) (broadcastInDim S100000x40 ![0, 1] bcast_S100000x1_S100000x40_0_1
    (Host.log (broadcastInDim S100000x1 ![0] bcast_S100000_S100000x1_0
      (Host.reduceAdd (Host.exp (shiftedOf A)) (constant (F := F) S_ .f32 0x00000000#32) reducesTo_S100000x40_S100000_d1 h_S_))))

/-- The reference's last stage is that chain of its biased third layer. -/
theorem val_v95_eq_lsmOf (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x40, .f32⟩ : BufTy).Contents (Elt F)) (x7 : (⟨S40, .f32⟩ : BufTy).Contents (Elt F)) :
    val_main_v95 (F := F) x0 x1 x2 x3 x4 x5 x6 x7 = lsmOf (val_main_v94 (F := F) x0 x1 x2 x3 x4 x5 x6 x7) := rfl

section LogSoftmaxCall

/-- The row maximum (folded from `-∞`, taken once more with `-∞`), kept as a column and spread over the lanes. -/
def colMaxOf (A : (⟨S100000x40, .f32⟩ : BufTy).Contents (Elt F)) : (⟨S100000x40, .f32⟩ : BufTy).Contents (Elt F) :=
  broadcastInDim S100000x40 ![0, 1] bcast_S100000x1_S100000x40_0_1
    (broadcastInDim S100000x1 ![0] bcast_S100000_S100000x1_0
      (maximumf (broadcastInDim S100000 ![] bcast_S_S100000 (constant (F := F) S_ .f32 0xFF800000#32))
        (Host.reduce FloatOps.maximumf A (constant (F := F) S_ .f32 0xFF800000#32) reducesTo_S100000x40_S100000_d1 h_S_)))

/-- The logarithm of the row sum of exponentials, kept as a column and spread over the lanes. -/
def logSumOf (S : (⟨S100000x40, .f32⟩ : BufTy).Contents (Elt F)) : (⟨S100000x40, .f32⟩ : BufTy).Contents (Elt F) :=
  broadcastInDim S100000x40 ![0, 1] bcast_S100000x1_S100000x40_0_1
    (Host.log (broadcastInDim S100000x1 ![0] bcast_S100000_S100000x1_0
      (Host.reduceAdd (Host.exp S) (constant (F := F) S_ .f32 0x00000000#32) reducesTo_S100000x40_S100000_d1 h_S_)))

theorem lsmOf_eq (A : (⟨S100000x40, .f32⟩ : BufTy).Contents (Elt F)) : lsmOf (F := F) A = subf (subf A (colMaxOf A)) (logSumOf (subf A (colMaxOf A))) := rfl

/-- Operations 120 to 126: the row maximum, spread. Each buffer's contents are read and written through the
    buffer's typed reference; a value written and read back collapses, the first read and the last write stay. -/
theorem call_max : StableHlo.after ((((ops (F := F)).drop 44).drop 75).take 7) X (Proc.devRef .tc main_call1_v4)
    = (TRef.of (T := ⟨S100000x40, .f32⟩) main_call1_v4 : TRef sig ⟨S100000x40, .f32⟩).toBuf (colMaxOf (F := F) ((TRef.of (T := ⟨S100000x40, .f32⟩) main_v94 : TRef sig ⟨S100000x40, .f32⟩).ofBuf (X (Proc.devRef .tc main_v94)))) := by
  simp only [ops, List.drop_succ_cons, List.drop_zero, List.take_succ_cons, List.take_zero]
  after_results_simp
  simp only [ofBuf_toBuf]
  rfl

theorem call_max_keep : StableHlo.after ((((ops (F := F)).drop 44).drop 75).take 7) X (Proc.devRef .tc main_v94) = X (Proc.devRef .tc main_v94) := by
  simp only [ops, List.drop_succ_cons, List.drop_zero, List.take_succ_cons, List.take_zero]
  after_results_simp

/-- Operation 127: the entries minus the spread maximum. -/
theorem call_shift : StableHlo.after (((((ops (F := F)).drop 44).drop 75).drop 7).take 1) X (Proc.devRef .tc main_call1_v5)
    = (TRef.of (T := ⟨S100000x40, .f32⟩) main_call1_v5 : TRef sig ⟨S100000x40, .f32⟩).toBuf (subf (F := F) ((TRef.of (T := ⟨S100000x40, .f32⟩) main_v94 : TRef sig ⟨S100000x40, .f32⟩).ofBuf (X (Proc.devRef .tc main_v94))) ((TRef.of (T := ⟨S100000x40, .f32⟩) main_call1_v4 : TRef sig ⟨S100000x40, .f32⟩).ofBuf (X (Proc.devRef .tc main_call1_v4)))) := by
  simp only [ops, List.drop_succ_cons, List.drop_zero, List.take_succ_cons, List.take_zero]
  after_results_simp

/-- Operations 128 to 133: the logarithm of the row sum of exponentials, spread. -/
theorem call_logsum : StableHlo.after ((((((ops (F := F)).drop 44).drop 75).drop 7).drop 1).take 6) X (Proc.devRef .tc main_call1_v10)
    = (TRef.of (T := ⟨S100000x40, .f32⟩) main_call1_v10 : TRef sig ⟨S100000x40, .f32⟩).toBuf (logSumOf (F := F) ((TRef.of (T := ⟨S100000x40, .f32⟩) main_call1_v5 : TRef sig ⟨S100000x40, .f32⟩).ofBuf (X (Proc.devRef .tc main_call1_v5)))) := by
  simp only [ops, List.drop_succ_cons, List.drop_zero, List.take_succ_cons, List.take_zero]
  after_results_simp
  simp only [ofBuf_toBuf]
  rfl

theorem call_logsum_keep : StableHlo.after ((((((ops (F := F)).drop 44).drop 75).drop 7).drop 1).take 6) X (Proc.devRef .tc main_call1_v5) = X (Proc.devRef .tc main_call1_v5) := by
  simp only [ops, List.drop_succ_cons, List.drop_zero, List.take_succ_cons, List.take_zero]
  after_results_simp

/-- Operation 134: the shifted entries minus the spread logarithm. -/
theorem call_out : StableHlo.after ((((((ops (F := F)).drop 44).drop 75).drop 7).drop 1).drop 6) X (Proc.devRef .tc main_v95)
    = (TRef.of (T := ⟨S100000x40, .f32⟩) main_v95 : TRef sig ⟨S100000x40, .f32⟩).toBuf (subf (F := F) ((TRef.of (T := ⟨S100000x40, .f32⟩) main_call1_v5 : TRef sig ⟨S100000x40, .f32⟩).ofBuf (X (Proc.devRef .tc main_call1_v5))) ((TRef.of (T := ⟨S100000x40, .f32⟩) main_call1_v10 : TRef sig ⟨S100000x40, .f32⟩).ofBuf (X (Proc.devRef .tc main_call1_v10)))) := by
  simp only [ops, List.drop_succ_cons, List.drop_zero, List.take_succ_cons, List.take_zero]
  after_results_simp

/-- The last 15 operations (the row-wise log-softmax) leave the result buffer at `lsmOf` of what the biased third
    layer's buffer holds, read and written through the two buffers' typed references. -/
theorem tail_read : StableHlo.after (((ops (F := F)).drop 44).drop 75) X (Proc.devRef .tc main_v95)
    = (TRef.of (T := ⟨S100000x40, .f32⟩) main_v95 : TRef sig ⟨S100000x40, .f32⟩).toBuf (lsmOf (F := F) ((TRef.of (T := ⟨S100000x40, .f32⟩) main_v94 : TRef sig ⟨S100000x40, .f32⟩).ofBuf (X (Proc.devRef .tc main_v94)))) := by
  rw [after_cut 7, after_cut 1 ((((ops (F := F)).drop 44).drop 75).drop 7), after_cut 6 (((((ops (F := F)).drop 44).drop 75).drop 7).drop 1), call_out, call_logsum_keep, call_logsum,
    call_shift, call_max, call_max_keep, lsmOf_eq]
  simp only [ofBuf_toBuf]

end LogSoftmaxCall

section Strip

-- the chain stays folded: only the two transports are to be reduced
attribute [local irreducible] lsmOf

/-- Reading an array through the third layer's typed reference and writing the result through the result buffer's is,
    at these two buffers' types, nothing. -/
theorem lsmOf_through (V : (⟨S100000x40, .f32⟩ : BufTy).Contents (Elt F)) :
    (TRef.of (T := ⟨S100000x40, .f32⟩) main_v95 : TRef sig ⟨S100000x40, .f32⟩).toBuf (lsmOf (F := F) ((TRef.of (T := ⟨S100000x40, .f32⟩) main_v94 : TRef sig ⟨S100000x40, .f32⟩).ofBuf V)) = lsmOf (F := F) V := rfl

end Strip

/-- The last 15 operations, from contents that hold the biased third layer. -/
theorem tail_v95 (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x40, .f32⟩ : BufTy).Contents (Elt F)) (x7 : (⟨S40, .f32⟩ : BufTy).Contents (Elt F))
    (h94 : X (Proc.devRef .tc main_v94) = val_main_v94 (F := F) x0 x1 x2 x3 x4 x5 x6 x7) :
    StableHlo.after (((ops (F := F)).drop 44).drop 75) X (Proc.devRef .tc main_v95) = val_main_v95 (F := F) x0 x1 x2 x3 x4 x5 x6 x7 := by
  rw [tail_read, h94, val_v95_eq_lsmOf]
  exact lsmOf_through _

/-- The last 90 operations together. -/
theorem rest_v95 (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x40, .f32⟩ : BufTy).Contents (Elt F)) (x7 : (⟨S40, .f32⟩ : BufTy).Contents (Elt F))
    (h3 : X (Proc.devRef .tc main_v3) = val_main_v3 (F := F) x1) (h6 : X (Proc.devRef .tc main_v6) = val_main_v6 (F := F) x1)
    (h32 : X (Proc.devRef .tc main_v32) = val_main_v32 (F := F) x1)
    (ha0 : X (Proc.devRef .tc main_arg0) = x0) (ha2 : X (Proc.devRef .tc main_arg2) = x2) (ha3 : X (Proc.devRef .tc main_arg3) = x3)
    (ha4 : X (Proc.devRef .tc main_arg4) = x4) (ha5 : X (Proc.devRef .tc main_arg5) = x5) (ha6 : X (Proc.devRef .tc main_arg6) = x6)
    (ha7 : X (Proc.devRef .tc main_arg7) = x7) :
    StableHlo.after ((ops (F := F)).drop 44) X (Proc.devRef .tc main_v95) = val_main_v95 (F := F) x0 x1 x2 x3 x4 x5 x6 x7 := by
  rw [after_cut 75]
  exact tail_v95 _ x0 x1 x2 x3 x4 x5 x6 x7 (mid_v94 X x0 x1 x2 x3 x4 x5 x6 x7 h3 h6 h32 ha0 ha2 ha3 ha4 ha5 ha6 ha7)

set_option maxHeartbeats 8000000 in
theorem rest_keep (b : Ref sig .tc) (hb : b = main_arg0 ∨ b = main_arg1 ∨ b = main_arg2 ∨ b = main_arg3 ∨ b = main_arg4 ∨ b = main_arg5 ∨ b = main_arg6 ∨ b = main_arg7) :
    StableHlo.after ((ops (F := F)).drop 44) X (Proc.devRef .tc b) = X (Proc.devRef .tc b) := by
  simp only [ops, List.drop_succ_cons, List.drop_zero]
  rcases hb with rfl | rfl | rfl | rfl | rfl | rfl | rfl | rfl <;> after_results_simp

end Stages

/-- The whole line, read at the result buffer. -/
theorem ops_v95 (X : Valuation τ sig (Elt F)) :
    StableHlo.after (ops (F := F)) X (Proc.devRef .tc main_v95)
      = val_main_v95 (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) := by
  rw [after_cut 44]
  exact rest_v95 _ _ _ _ _ _ _ _ _ (pre_v3 X) (pre_v6 X) (pre_v32 X)
    (pre_keep X main_arg0 (by simp)) (pre_keep X main_arg2 (by simp)) (pre_keep X main_arg3 (by simp)) (pre_keep X main_arg4 (by simp))
    (pre_keep X main_arg5 (by simp)) (pre_keep X main_arg6 (by simp)) (pre_keep X main_arg7 (by simp))

/-- The whole line leaves each argument as it found it. -/
theorem ops_keep (X : Valuation τ sig (Elt F)) (b : Ref sig .tc) (hb : b = main_arg0 ∨ b = main_arg1 ∨ b = main_arg2 ∨ b = main_arg3 ∨ b = main_arg4 ∨ b = main_arg5 ∨ b = main_arg6 ∨ b = main_arg7) :
    StableHlo.after (ops (F := F)) X (Proc.devRef .tc b) = X (Proc.devRef .tc b) := by
  rw [after_cut 44, rest_keep _ b hb, pre_keep X b hb]

/-- On every device, from any memory with zero counters: every weakly fair execution of the reference terminates,
    nothing faulting, with the result array at `val_main_v95` of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95) = val_main_v95 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨(h c main_v95).trans (ops_v95 (launchContents m c)),
       (h c main_arg0).trans (ops_keep (launchContents m c) main_arg0 (by simp)),
       (h c main_arg1).trans (ops_keep (launchContents m c) main_arg1 (by simp)),
       (h c main_arg2).trans (ops_keep (launchContents m c) main_arg2 (by simp)),
       (h c main_arg3).trans (ops_keep (launchContents m c) main_arg3 (by simp)),
       (h c main_arg4).trans (ops_keep (launchContents m c) main_arg4 (by simp)),
       (h c main_arg5).trans (ops_keep (launchContents m c) main_arg5 (by simp)),
       (h c main_arg6).trans (ops_keep (launchContents m c) main_arg6 (by simp)),
       (h c main_arg7).trans (ops_keep (launchContents m c) main_arg7 (by simp))⟩)
    (run_seq scopedRefs_eq scopedSems_eq defs main (fun _ => ops) main_eq (fun _ => ops_sub) m ρ)

end Cert.ReferenceIdeal.RefRun

end
-- ==== Proof.KRun.lean ====
/-
  The idealized kernel's run, with its result named.

  The program is six kernel launches among stretches of host operations. The generated frame of this program
  follows the buffers' contents from the launch through every stretch and every launch: `Gen.W12` is what every
  buffer holds when the last launch has written back. Here the same run is stated with one more fact read off that
  last boundary: the result array `main_v77` ends holding `Gen.W12` at its own reference, beside the eight
  argument arrays ending as launched. What `Gen.W12` holds there is worked out in the modules that import this one.
-/
import proofs.«106903_j8074538516509_1_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting; the result array ends at the last
    boundary's contents and the argument arrays as launched. -/
theorem run_result : θ_run defs (onTc (τ := τ) (main (F := F))) ⟨m, fun _ => 0, ρ⟩ (fun r => ∀ c : Dev nD,
      r.2.mem ((c.tc : Thread nD τ).loc main_v77) = W12 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v77 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Val

end
-- ==== Proof.KHost.lean ====
/-
  The host operations around the kernel launches, as functions of arrays.

  Before the first launch the program builds, from the edge list `e : [2, E]` alone, the edges' source and target
  nodes with one self-loop appended per node (`srcOf`, `dstOf`: a row of `e` followed by `0 … N-1`), each node's
  in-degree as a sum of ones over the edges arriving at it (`degOf`), `dis = where(deg > 0, rsqrt(max(deg, ε)), 0)`
  (`disOf`) and the edge normalisation `dis[src] · dis[dst]` kept as a column (`normOf`). After each matrix-product
  launch it gathers the product's rows at the edges' sources, scales row `j` by the normalisation of edge `j` and adds
  it into the row of the edge's target (`agg64`, `agg40`: the same three operations at widths 64 and 40), and it lays
  the layer's bias vector out as a one-row matrix for the next launch. A gather's index column is the index vector
  with negative entries wrapped by the number of nodes (`wrapIx`), as the host prints `x[idx]`.

  The second half reads each stretch of host operations at the buffers the launches and the later stretches use:
  from ANY contents `X` of the buffers, the stretch leaves each of its results at the function above of what `X` holds
  at the stretch's operands, and leaves every buffer it does not write as `X` has it. Nothing here looks inside a
  gather or a scatter: they are carried as they are printed.
-/
import proofs.«106903_j8074538516509_1_alg».proof.Proof.Gen.KernelIdeal.Launch
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.SL.Sem
open Idealize.ShloMosaic.StableHlo

variable {F : FTy → Type} [FloatOps F]

/-! ## The arrays the host builds -/

/-- The edges' source nodes: row 0 of the edge list, then one self-loop per node. -/
def srcOf (e : (⟨S2x1600000, .i32⟩ : BufTy).Contents (Elt F)) : (⟨S1700000, .i32⟩ : BufTy).Contents (Elt F) :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- The edges' target nodes: row 1 of the edge list, then one self-loop per node. -/
def dstOf (e : (⟨S2x1600000, .i32⟩ : BufTy).Contents (Elt F)) : (⟨S1700000, .i32⟩ : BufTy).Contents (Elt F) :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- An index vector as a gather's index column, a negative index wrapped by the number of nodes. -/
def wrapIx (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- Each node's in-degree: ones summed over the edges (self-loops included) that arrive at it. -/
def degOf (d : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 d)
    (broadcastInDim S1700000 ![] bcast_S_S1700000 (constant S_ .f32 0x3F800000#32))

/-- `where(deg > 0, rsqrt(max(deg, ε)), 0)`. -/
def disOf (d : (⟨S1700000, .i32⟩ : BufTy).Contents (Elt F)) : (⟨S100000, .f32⟩ : BufTy).Contents (Elt F) :=
  select (cmpf (F := F) .ogt (degOf d) (broadcastInDim S100000 ![] bcast_S_S100000 (constant S_ .f32 0x00000000#32)))
    (Host.rsqrt (maximumf (degOf d) (broadcastInDim S100000 ![] bcast_S_S100000 (constant S_ .f32 0x2B8CBCCC#32))))
    (broadcastInDim S100000 ![] bcast_S_S100000 (id (constant S_ .f32 0x00000000#32)))

/-- The edge normalisation `dis[src] · dis[dst]`, as a column. -/
def normOf (s d : (⟨S1700000, .i32⟩ : BufTy).Contents (Elt F)) : (⟨S1700000x1, .f32⟩ : BufTy).Contents (Elt F) :=
  broadcastInDim S1700000x1 ![0] bcast_S1700000_S1700000x1_0
    (mulf (Host.gather gather_S100000_S1700000x1_S1700000_n_0_n_n_0_1_1 (disOf (F := F) d) (wrapIx s))
      (Host.gather gather_S100000_S1700000x1_S1700000_n_0_n_n_0_1_1 (disOf (F := F) d) (wrapIx d)))

/-- Rows of `P` gathered at the sources, row `j` scaled by `n j`, summed into the targets' rows (width 64). -/
def agg64 (s d : (⟨S1700000, .i32⟩ : BufTy).Contents (Elt F)) (n : (⟨S1700000x1, .f32⟩ : BufTy).Contents (Elt F)) (P : (⟨S100000x64, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 d)
    (mulf (Host.gather gather_S100000x64_S1700000x1_S1700000x64_1_0_n_n_0_1_164 P (wrapIx s))
      (broadcastInDim S1700000x64 ![0, 1] bcast_S1700000x1_S1700000x64_0_1 n))

/-- The same at width 40. -/
def agg40 (s d : (⟨S1700000, .i32⟩ : BufTy).Contents (Elt F)) (n : (⟨S1700000x1, .f32⟩ : BufTy).Contents (Elt F)) (P : (⟨S100000x40, .f32⟩ : BufTy).Contents (Elt F)) : (⟨S100000x40, .f32⟩ : BufTy).Contents (Elt F) :=
  Host.scatterAdd scatter_S100000x40_S1700000x1_S1700000x40_1_0_0_1
    (broadcastInDim S100000x40 ![] bcast_S_S100000x40 (constant S_ .f32 0x00000000#32))
    (broadcastInDim S1700000x1 ![0] bcast_S1700000_S1700000x1_0 d)
    (mulf (Host.gather gather_S100000x40_S1700000x1_S1700000x40_1_0_n_n_0_1_140 P (wrapIx s))
      (broadcastInDim S1700000x40 ![0, 1] bcast_S1700000x1_S1700000x40_0_1 n))

/-! ## Each stretch of host operations, read at the buffers that are used later -/

section Reads

variable (X : Valuation τ sig (Elt F))

/-! ### Before the first launch: three stretches, one after the other -/

theorem pre_src : StableHlo.after (hostOps0_2 (F := F)) (StableHlo.after hostOps0_1 (StableHlo.after hostOps0 X)) (Proc.devRef .tc main_v3)
    = srcOf (F := F) (X (Proc.devRef .tc main_arg1)) := by
  after_results_simp <;> rfl

theorem pre_dst : StableHlo.after (hostOps0_2 (F := F)) (StableHlo.after hostOps0_1 (StableHlo.after hostOps0 X)) (Proc.devRef .tc main_v6)
    = dstOf (F := F) (X (Proc.devRef .tc main_arg1)) := by
  after_results_simp <;> rfl

theorem pre_norm : StableHlo.after (hostOps0_2 (F := F)) (StableHlo.after hostOps0_1 (StableHlo.after hostOps0 X)) (Proc.devRef .tc main_v32)
    = normOf (F := F) (srcOf (X (Proc.devRef .tc main_arg1))) (dstOf (X (Proc.devRef .tc main_arg1))) := by
  after_results_simp <;> rfl

theorem pre_keep_arg0 : StableHlo.after (hostOps0_2 (F := F)) (StableHlo.after hostOps0_1 (StableHlo.after hostOps0 X)) (Proc.devRef .tc main_arg0) = X (Proc.devRef .tc main_arg0) := by after_results_simp
theorem pre_keep_arg2 : StableHlo.after (hostOps0_2 (F := F)) (StableHlo.after hostOps0_1 (StableHlo.after hostOps0 X)) (Proc.devRef .tc main_arg2) = X (Proc.devRef .tc main_arg2) := by after_results_simp
theorem pre_keep_arg3 : StableHlo.after (hostOps0_2 (F := F)) (StableHlo.after hostOps0_1 (StableHlo.after hostOps0 X)) (Proc.devRef .tc main_arg3) = X (Proc.devRef .tc main_arg3) := by after_results_simp
theorem pre_keep_arg4 : StableHlo.after (hostOps0_2 (F := F)) (StableHlo.after hostOps0_1 (StableHlo.after hostOps0 X)) (Proc.devRef .tc main_arg4) = X (Proc.devRef .tc main_arg4) := by after_results_simp
theorem pre_keep_arg5 : StableHlo.after (hostOps0_2 (F := F)) (StableHlo.after hostOps0_1 (StableHlo.after hostOps0 X)) (Proc.devRef .tc main_arg5) = X (Proc.devRef .tc main_arg5) := by after_results_simp
theorem pre_keep_arg6 : StableHlo.after (hostOps0_2 (F := F)) (StableHlo.after hostOps0_1 (StableHlo.after hostOps0 X)) (Proc.devRef .tc main_arg6) = X (Proc.devRef .tc main_arg6) := by after_results_simp
theorem pre_keep_arg7 : StableHlo.after (hostOps0_2 (F := F)) (StableHlo.after hostOps0_1 (StableHlo.after hostOps0 X)) (Proc.devRef .tc main_arg7) = X (Proc.devRef .tc main_arg7) := by after_results_simp

/-! ### Between the launches -/

theorem hostOps1_agg : StableHlo.after (hostOps1 (F := F)) X (Proc.devRef .tc main_v45)
    = agg64 (F := F) (X (Proc.devRef .tc main_v3)) (X (Proc.devRef .tc main_v6)) (X (Proc.devRef .tc main_v32)) (X (Proc.devRef .tc main_v33)) := by
  after_results_simp <;> rfl

theorem hostOps1_bias : StableHlo.after (hostOps1 (F := F)) X (Proc.devRef .tc main_v46)
    = shapeCast S1x64 (X (Proc.devRef .tc main_arg3)) shapeCasts_S64_S1x64 := by
  after_results_simp <;> rfl

theorem hostOps1_keep_v3 : StableHlo.after (hostOps1 (F := F)) X (Proc.devRef .tc main_v3) = X (Proc.devRef .tc main_v3) := by after_results_simp
theorem hostOps1_keep_v6 : StableHlo.after (hostOps1 (F := F)) X (Proc.devRef .tc main_v6) = X (Proc.devRef .tc main_v6) := by after_results_simp
theorem hostOps1_keep_v32 : StableHlo.after (hostOps1 (F := F)) X (Proc.devRef .tc main_v32) = X (Proc.devRef .tc main_v32) := by after_results_simp
theorem hostOps1_keep_arg4 : StableHlo.after (hostOps1 (F := F)) X (Proc.devRef .tc main_arg4) = X (Proc.devRef .tc main_arg4) := by after_results_simp
theorem hostOps1_keep_arg5 : StableHlo.after (hostOps1 (F := F)) X (Proc.devRef .tc main_arg5) = X (Proc.devRef .tc main_arg5) := by after_results_simp
theorem hostOps1_keep_arg6 : StableHlo.after (hostOps1 (F := F)) X (Proc.devRef .tc main_arg6) = X (Proc.devRef .tc main_arg6) := by after_results_simp
theorem hostOps1_keep_arg7 : StableHlo.after (hostOps1 (F := F)) X (Proc.devRef .tc main_arg7) = X (Proc.devRef .tc main_arg7) := by after_results_simp

theorem hostOps3_agg : StableHlo.after (hostOps3 (F := F)) X (Proc.devRef .tc main_v60)
    = agg64 (F := F) (X (Proc.devRef .tc main_v3)) (X (Proc.devRef .tc main_v6)) (X (Proc.devRef .tc main_v32)) (X (Proc.devRef .tc main_v48)) := by
  after_results_simp <;> rfl

theorem hostOps3_bias : StableHlo.after (hostOps3 (F := F)) X (Proc.devRef .tc main_v61)
    = shapeCast S1x64 (X (Proc.devRef .tc main_arg5)) shapeCasts_S64_S1x64 := by
  after_results_simp <;> rfl

theorem hostOps3_keep_v3 : StableHlo.after (hostOps3 (F := F)) X (Proc.devRef .tc main_v3) = X (Proc.devRef .tc main_v3) := by after_results_simp
theorem hostOps3_keep_v6 : StableHlo.after (hostOps3 (F := F)) X (Proc.devRef .tc main_v6) = X (Proc.devRef .tc main_v6) := by after_results_simp
theorem hostOps3_keep_v32 : StableHlo.after (hostOps3 (F := F)) X (Proc.devRef .tc main_v32) = X (Proc.devRef .tc main_v32) := by after_results_simp
theorem hostOps3_keep_arg6 : StableHlo.after (hostOps3 (F := F)) X (Proc.devRef .tc main_arg6) = X (Proc.devRef .tc main_arg6) := by after_results_simp
theorem hostOps3_keep_arg7 : StableHlo.after (hostOps3 (F := F)) X (Proc.devRef .tc main_arg7) = X (Proc.devRef .tc main_arg7) := by after_results_simp

theorem hostOps5_agg : StableHlo.after (hostOps5 (F := F)) X (Proc.devRef .tc main_v75)
    = agg40 (F := F) (X (Proc.devRef .tc main_v3)) (X (Proc.devRef .tc main_v6)) (X (Proc.devRef .tc main_v32)) (X (Proc.devRef .tc main_v63)) := by
  after_results_simp <;> rfl

theorem hostOps5_bias : StableHlo.after (hostOps5 (F := F)) X (Proc.devRef .tc main_v76)
    = shapeCast S1x40 (X (Proc.devRef .tc main_arg7)) shapeCasts_S40_S1x40 := by
  after_results_simp <;> rfl

end Reads

end Cert.KernelIdeal.Val

end
-- ==== Proof.LibPlainDot.lean ====
/-
  A plain matrix product's contraction, re-indexed by the contracted coordinate.

  A contraction record over `[M, K] × [K, N] → [M, N]` with ONE contracted axis sums over indices of a
  rank-one shape; what a value proof wants is the sum over `k : Fin K` of the left operand at `(row, k)`
  times the right at `(k, column)`. The record enters only through six facts, each decidable at a literal
  record: its contraction shape has rank one and extent `K`, and the operand index at an output index and a
  contraction index has the expected coordinates.
-/
import Idealize.ShloMosaic.PureOps.Ideal.Laws
import Idealize.ShloMosaic.Lib.ValueIdx

noncomputable section

namespace Cert.Lib.PlainDot

open Idealize.ShloMosaic Idealize.ShloMosaic.ValueIdx

/-- The sum over a one-axis contraction, as the sum over `k : Fin K` of left `(j 0, k)` times right `(k, j 1)`. -/
theorem sum_rows_cols {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact hl0 _ _
    | ⟨1, _⟩ => exact (hl1 _ _).trans hk)
  have er : D.rhsIdx j ((contrEquiv1 D K hr hs).symm k) = ix2 k (j 1) := funext fun a => Fin.ext (by
    match a with
    | ⟨0, _⟩ => exact (hr0 _ _).trans hk
    | ⟨1, _⟩ => exact hr1 _ _)
  exact congrArg₂ (· * ·) (congrArg l el) (congrArg r er)

end Cert.Lib.PlainDot

end
-- ==== Proof.LibMatProd.lean ====
/-
  A plain matrix product, and the two operations that compute it.

  `prod l r` is rows times columns: entry `(i, j)` is the sum over `k : Fin K` of `l (i, k) * r (k, j)` on the
  extended reals. Both a kernel's `tpu.matmul` into a ZERO accumulator and the host's `dot_general`, over a
  contraction record for `[M, K] × [K, N] → [M, N]` with one contracted axis, are that function at the ideal
  values (the accumulator adds zero; the host's product has none). The record enters through the same six
  facts as `Cert.Lib.PlainDot.sum_rows_cols`, each by computation at a literal record. The operands' float
  formats are free: at the ideal values a change of format is the identity, so a product fed rounded operands
  is the product of the operands.

  Reading a product of a BLOCK of rows: entry `(p, q)` of `prod` of rows `T·B … T·B + B − 1` of `l` with the
  right operand is entry `(T·B + p, q)` of `prod l r` (`prod_rows`), which is what makes a product computed
  block of rows by block of rows the whole product.
-/
import Idealize.ShloMosaic.PureOps.Ideal.Laws
import Idealize.ShloMosaic.Lib.ValueIdx
import proofs.«106903_j8074538516509_1_alg».proof.Proof.LibPlainDot

noncomputable section

namespace Cert.Lib.MatProd

open Idealize.ShloMosaic Idealize.ShloMosaic.ValueIdx

/-- Rows times columns, on the extended reals. -/
def prod {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem prod_apply {M K N : ℕ} (l : (⟨2, ![M, K]⟩ : Shape).Idx → EReal) (r : (⟨2, ![K, N]⟩ : Shape).Idx → EReal)
    (i : Fin M) (j : Fin N) : prod l r (ix2 i j) = ∑ k : Fin K, l (ix2 i k) * r (ix2 k j) := rfl

/-- The host's `dot_general` over a one-axis contraction record is `prod`. -/
theorem dotGeneral_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    Host.dotGeneral D prec l r = prod l r :=
  funext fun j => (Ideal.dotGeneral_apply D prec .single l r j).trans
    (Cert.Lib.PlainDot.sum_rows_cols D hr hs hl0 hl1 hr0 hr1 l r j)

/-- A kernel's `tpu.matmul` into the zero accumulator, over a one-axis contraction record, is `prod`. -/
theorem matmul_zero_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    matmul D prec l r (constant (F := Ideal) ⟨2, ![M, N]⟩ .f32 0x00000000#32) = prod l r :=
  funext fun j => (Ideal.matmul_constant_zero_apply D prec l r j).trans
    (Cert.Lib.PlainDot.sum_rows_cols D hr hs hl0 hl1 hr0 hr1 l r j)

/-- The product of a block of `B` rows of `l`, starting at row `T * B`, read at `(p, q)`, is the whole product at
    `(T * B + p, q)`: `lb` holds those rows (`hl`) and `rb` holds column `q` of the right operand (`hr`). -/
theorem prod_rows {M K N B : ℕ} (l : (⟨2, ![M, K]⟩ : Shape).Idx → EReal) (r : (⟨2, ![K, N]⟩ : Shape).Idx → EReal)
    (lb : (⟨2, ![B, K]⟩ : Shape).Idx → EReal) (rb : (⟨2, ![K, N]⟩ : Shape).Idx → EReal)
    (T : ℕ) (p : Fin B) (q : Fin N) (h : T * B + p.val < M)
    (hl : ∀ k : Fin K, lb (ix2 p k) = l (ix2 ⟨T * B + p.val, h⟩ k))
    (hr : ∀ k : Fin K, rb (ix2 k q) = r (ix2 k q)) :
    prod lb rb (ix2 p q) = prod l r (ix2 ⟨T * B + p.val, h⟩ q) :=
  Finset.sum_congr rfl fun k _ => by
    show lb (ix2 p k) * rb (ix2 k q) = l (ix2 ⟨T * B + p.val, h⟩ k) * r (ix2 k q)
    rw [hl k, hr k]

end Cert.Lib.MatProd

end
-- ==== Proof.LibRowSoftmax.lean ====
/-
  Row-wise softmax read at an index, at the ideal (extended-real) values.

  A kernel that normalises the rows of an `[a, b]` matrix writes
  `exp (s - max_row s) / sum_row (exp (s - max_row s))`, the two row statistics taken by a reduction over
  axis 1, turned into a column `[a, 1]` and spread back over the `b` lanes. Entry `(r, j)` of the result
  depends on row `r` of `s` only: it is `softmaxOf (fun j' => s (r, j')) j`, where
  `softmaxOf f j = exp (f j - M) / ∑ j', exp (f j' - M)` and `M` is the maximum of `f` folded from `-∞`.
  No algebra on the extended reals is used: each printed operation is read at the index.
-/
import Idealize.ShloMosaic.PureOps.Ideal.Laws
import Idealize.ShloMosaic.Lib.ValueIdx
import Idealize.ShloMosaic.Lib.ValueLayout

noncomputable section

namespace Cert.Lib.RowSoftmax

open Idealize.ShloMosaic Idealize.ShloMosaic.ValueIdx

/-! ## The two keep-dims layout steps -/

section Layout
variable {α : Type}

/-- A length-`a` vector cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(i, j)`, the column at `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The two steps together: a per-row statistic spread back over the lanes reads, at `(i, j)`, the statistic of row `i`. -/
theorem keepdims_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) :=
  (broadcastTo_a1_ab_apply _ hb i j).trans (shapeCast_a_a1_apply x hc i 0)

end Layout

/-! ## The two row reductions -/

/-- The index over row `r` with lane `j` inserted is `(r, j)`. -/
theorem lift_row {a b : ℕ} (h : (⟨2, ![a, b]⟩ : Shape).Reduces [1] ⟨1, ![a]⟩) (r : Fin a) (j : Fin b) :
    h.lift (ix1 r) j = ix2 r j := by
  funext c; apply Fin.ext
  match c with
  | ⟨0, _⟩ => rfl
  | ⟨1, _⟩ => rfl

/-- A maximum over the lanes, at row `r`: the fold of `max` from the accumulator's value over that row's entries. -/
theorem rowMax_apply {a b : ℕ} (s : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ s acc h hφ hacc (ix1 r)
      = (Finset.univ : Finset (Fin b)).fold max (Ideal.ofBits .f32 acc) (fun j => s (ix2 r j)) := by
  refine (Ideal.multiReduction_maximumf_single s acc h hφ hacc (ix1 r)).trans ?_
  show (Finset.univ : Finset (Fin b)).fold max (Ideal.ofBits .f32 acc) (fun j => s (h.lift (ix1 r) j)) = _
  exact congrArg (fun f => (Finset.univ : Finset (Fin b)).fold max (Ideal.ofBits .f32 acc) f)
    (funext fun j => congrArg s (lift_row h r j))

/-- A sum over the lanes, at row `r`: the sum of that row's entries. -/
theorem rowSum_apply {a b : ℕ} (p : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ p acc h hφ hacc (ix1 r) = ∑ j : Fin b, p (ix2 r j) := by
  refine (Ideal.multiReduction_add_single p acc h hφ hacc (ix1 r)).trans ?_
  show ∑ j : Fin b, p (h.lift (ix1 r) j) = _
  exact Finset.sum_congr rfl fun j _ => congrArg p (lift_row h r j)

/-! ## Softmax of one row -/

/-- `-∞`, as the bit pattern both programs start their maximum from. -/
abbrev negInf : EReal := Ideal.ofBits .f32 0xFF800000#32

/-- The maximum of a row, folded from `-∞`. -/
def maxOf {b : ℕ} (f : Fin b → EReal) : EReal := (Finset.univ : Finset (Fin b)).fold max negInf f

/-- Taking the maximum with `-∞` once more changes nothing: the fold already starts there. -/
theorem max_negInf_maxOf {b : ℕ} (f : Fin b → EReal) : max negInf (maxOf f) = maxOf f :=
  max_eq_right ((Finset.le_fold_max negInf).mpr (Or.inl le_rfl))

/-- The unnormalised weight of lane `j`: `exp (f j - max f)`. -/
def weightOf {b : ℕ} (f : Fin b → EReal) (j : Fin b) : EReal := Ideal.exp (f j - maxOf f)

/-- Softmax of a row at lane `j`: its weight over the sum of the row's weights. -/
def softmaxOf {b : ℕ} (f : Fin b → EReal) (j : Fin b) : EReal :=
  Ideal.div (weightOf f j) (∑ j' : Fin b, weightOf f j')

/-- The chain a kernel prints for a row-wise softmax of an `[a, b]` matrix `s` — row maximum, subtract, `exp`,
    row sum, divide, both statistics kept as columns and spread over the lanes — read at `(r, j)`: the softmax of
    row `r` at lane `j`. -/
theorem softmax_rows_apply {a b : ℕ} (s : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hmax : (0xFF800000#32 : BitVec 32) = FKind.maximumf.neutral .f32 hφ)
    (hadd : (0x00000000#32 : BitVec 32) = FKind.add.neutral .f32 hφ) (r : Fin a) (j : Fin b) :
    divf
        (exp (subf s (broadcastTo ⟨2, ![a, b]⟩ (shapeCast ⟨2, ![a, 1]⟩
          (multiReduction .maximumf [1] ⟨1, ![a]⟩ s 0xFF800000#32 hr hφ hmax) hc) hb)))
        (broadcastTo ⟨2, ![a, b]⟩ (shapeCast ⟨2, ![a, 1]⟩
          (multiReduction .add [1] ⟨1, ![a]⟩
            (exp (subf s (broadcastTo ⟨2, ![a, b]⟩ (shapeCast ⟨2, ![a, 1]⟩
              (multiReduction .maximumf [1] ⟨1, ![a]⟩ s 0xFF800000#32 hr hφ hmax) hc) hb)))
            0x00000000#32 hr hφ hadd) hc) hb)
        (ix2 r j)
      = softmaxOf (fun j' => s (ix2 r j')) j := by
  -- the weights, entry by entry
  have hw : ∀ j' : Fin b,
      exp (subf s (broadcastTo ⟨2, ![a, b]⟩ (shapeCast ⟨2, ![a, 1]⟩
          (multiReduction .maximumf [1] ⟨1, ![a]⟩ s 0xFF800000#32 hr hφ hmax) hc) hb)) (ix2 r j')
        = weightOf (fun j'' => s (ix2 r j'')) j' := by
    intro j'
    show Ideal.exp (s (ix2 r j') - broadcastTo ⟨2, ![a, b]⟩ (shapeCast ⟨2, ![a, 1]⟩
          (multiReduction .maximumf [1] ⟨1, ![a]⟩ s 0xFF800000#32 hr hφ hmax) hc) hb (ix2 r j')) = _
    rw [keepdims_apply _ hc hb r j', rowMax_apply s _ hr hφ hmax r]
    rfl
  show Ideal.div _ _ = _
  rw [hw j, keepdims_apply _ hc hb r j, rowSum_apply _ _ hr hφ hadd r]
  unfold softmaxOf
  exact congrArg (Ideal.div _) (Finset.sum_congr rfl fun j' _ => hw j')

end Cert.Lib.RowSoftmax

end
-- ==== Proof.Spec.lean ====
/-
  What the program's three kinds of kernel launch compute, as functions of whole arrays on the extended reals.

  The program is a three-layer graph convolution. Each layer multiplies the node features by a weight matrix,
  gathers the product's rows along the edges, scales each gathered row by the edge's normalisation, sums the rows
  arriving at each node, adds a bias row, and applies a nonlinearity: `x ↦ x · logistic x` after the first two
  layers, a row-wise log-softmax after the third. The kernel launches compute the matrix products (a block of
  rows at a time) and the bias-plus-nonlinearity steps (a block of rows at a time); everything between them is
  the same host text in both programs.

  * the matrix product is `Cert.Lib.MatProd.prod`: entry `(i, j)` is `∑ k, l (i, k) * r (k, j)`;
  * `biasSwish A β`: entry `(r, k)` is `swish (A (r, k) + β k)`, with `swish x = x * logistic x`;
  * `biasLogSoftmax A β`: with `v k = A (r, k) + β k` the biased row, `M` its maximum folded from `-∞` and
    `S = ∑ k, exp (v k - M)`, entry `(r, k)` is `(v k - M) - log S`.

  Nothing here needs an entry to be finite: each side of the certificate evaluates these same expressions, so
  they agree at infinite entries as well.
-/
import Idealize.ShloMosaic.PureOps.Ideal
import Idealize.ShloMosaic.Lib.ValueIdx
import proofs.«106903_j8074538516509_1_alg».proof.Proof.LibMatProd
import proofs.«106903_j8074538516509_1_alg».proof.Proof.LibRowSoftmax

noncomputable section

namespace Cert.Gcn

open Idealize.ShloMosaic Idealize.ShloMosaic.ValueIdx Cert.Lib.RowSoftmax

/-- `x · logistic x`. -/
def swish (x : EReal) : EReal := x * Ideal.logistic x

/-- A bias added to every row, lane by lane, then `swish`. -/
def biasSwish {a b : ℕ} (A : (⟨2, ![a, b]⟩ : Shape).Idx → EReal) (β : Fin b → EReal) :
    (⟨2, ![a, b]⟩ : Shape).Idx → EReal :=
  fun i => swish (A i + β (i 1))

theorem biasSwish_apply {a b : ℕ} (A : (⟨2, ![a, b]⟩ : Shape).Idx → EReal) (β : Fin b → EReal) (r : Fin a) (k : Fin b) :
    biasSwish A β (ix2 r k) = swish (A (ix2 r k) + β k) := rfl

/-- Row `r` of `A` with the bias added, as a function of the lane. -/
def biasRow {a b : ℕ} (A : (⟨2, ![a, b]⟩ : Shape).Idx → EReal) (β : Fin b → EReal) (r : Fin a) : Fin b → EReal :=
  fun k => A (ix2 r k) + β k

/-- Log-softmax of one row at lane `k`: `(v k - max v) - log (∑ k', exp (v k' - max v))`. -/
def logSoftmaxOf {b : ℕ} (v : Fin b → EReal) (k : Fin b) : EReal :=
  (v k - maxOf v) - Ideal.log (∑ k' : Fin b, weightOf v k')

/-- A bias added to every row, then the row-wise log-softmax. -/
def biasLogSoftmax {a b : ℕ} (A : (⟨2, ![a, b]⟩ : Shape).Idx → EReal) (β : Fin b → EReal) :
    (⟨2, ![a, b]⟩ : Shape).Idx → EReal :=
  fun i => logSoftmaxOf (biasRow A β (i 0)) (i 1)

theorem biasLogSoftmax_apply {a b : ℕ} (A : (⟨2, ![a, b]⟩ : Shape).Idx → EReal) (β : Fin b → EReal) (r : Fin a) (k : Fin b) :
    biasLogSoftmax A β (ix2 r k) = logSoftmaxOf (biasRow A β r) k := rfl

end Cert.Gcn

end
-- ==== Proof.Mm0.lean ====
/-
  The first matrix product of the kernel (the node features times the first layer's weights), as one function of whole arrays.

  The launch runs over ten grid points. Point t takes rows 10000·t … 10000·t + 9999 of the left array (100000 × 128) and
  the whole right array (128 × 64), and writes rows 10000·t … 10000·t + 9999 of the result (100000 × 64). What a point
  computes is the product of its block of rows with the right array, accumulated from zero, both operands rounded to
  bf16 first. At the ideal values rounding is the
  identity and a product accumulated from zero is the plain product `Cert.Lib.MatProd.prod`. Entry (p, q) of the
  product of a block of rows is entry (10000·t + p, q) of the product of the whole arrays, so each point writes back its
  own block of the whole product, and the ten blocks cover every row: after the launch the result array is `prod` of the
  two input arrays as the launch found them.
-/
import proofs.«106903_j8074538516509_1_alg».proof.Proof.Gen.KernelIdeal.Frame
import proofs.«106903_j8074538516509_1_alg».proof.Proof.LibMatProd
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## What one grid point computes -/

/-- The body loads and stores whole blocks: the offsets of its accesses are zero on both axes. -/
theorem mm0_zero_offsets : (![0, 0] : Fin 2 → Nat) = fun _ => 0 := funext fun a => by fin_cases a <;> rfl

/-- The contraction pairs axis 1 of the left operand with axis 0 of the right one. At an output index (row, column) and
    a contraction index k, the left operand is read at (row, k) … -/
theorem mm0_lhs_row (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem mm0_lhs_contr (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- … and the right operand at (k, column). -/
theorem mm0_rhs_contr (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem mm0_rhs_col (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- What the body stores is the plain product of the two blocks it loaded: rounding the operands to bf16 is the identity
    at the ideal values and the accumulator starts at zero. -/
theorem mm0_payload_eq_prod (x0 : Vec Ideal S10000x128 .f32) (x1 : Vec Ideal S128x64 .f32) :
    k0_pay1 x0 x1 = Cert.Lib.MatProd.prod (M := 10000) (K := 128) (N := 64) x0 x1 := by
  unfold k0_pay1
  exact Cert.Lib.MatProd.matmul_zero_eq_prod dot_S10000x128_S128x64_S10000x64_1_0_0_1_n_n rfl rfl
    mm0_lhs_row mm0_lhs_contr mm0_rhs_contr mm0_rhs_col none (truncf .bf16 x0 bitsLt_bf16_f32) (truncf .bf16 x1 bitsLt_bf16_f32)

/-! ## Where the blocks sit in the arrays -/

/-- The block indices at grid point t: the left operand's and the result's blocks are block t along the rows and block 0
    along the columns; the right operand's block is block 0 on both axes (its block is its whole array). -/
theorem mm0_block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at grid point t holds rows 10000·t … 10000·t + 9999 of the left array. -/
theorem mm0_left_block (c : Dev nD) (t : Fin cfg0.N) (p : Fin 10000) (k : Fin 128) (h : t.val * 10000 + p.val < 100000) :
    iblk0 V c 0 t (ix2 p k) = V c main_arg0 (ix2 ⟨t.val * 10000 + p.val, h⟩ k) := by
  obtain ⟨e0, e1, -, -, -, -⟩ := mm0_block_indices t
  show V c main_arg0 (((cfg0.win 0).blk t).view.emb (ix2 p k)) = _
  refine congrArg (V c main_arg0) ?_
  funext a; apply Fin.ext
  match a with
  | ⟨0, _⟩ => show win0_0.index t (0 : Fin 2) * 10000 + 1 * p.val = t.val * 10000 + p.val; rw [e0]; omega
  | ⟨1, _⟩ => show win0_0.index t (1 : Fin 2) * 128 + 1 * k.val = k.val; rw [e1]; omega

/-- The right operand's block is the whole right array, at every grid point. -/
theorem mm0_right_block (c : Dev nD) (t : Fin cfg0.N) (k : Fin 128) (q : Fin 64) :
    iblk0 V c 1 t (ix2 k q) = V c main_arg2 (ix2 k q) := by
  obtain ⟨-, -, e2, e3, -, -⟩ := mm0_block_indices t
  show V c main_arg2 (((cfg0.win 1).blk t).view.emb (ix2 k q)) = _
  refine congrArg (V c main_arg2) ?_
  funext a; apply Fin.ext
  match a with
  | ⟨0, _⟩ => show win0_1.index t (0 : Fin 2) * 128 + 1 * k.val = k.val; rw [e2]; omega
  | ⟨1, _⟩ => show win0_1.index t (1 : Fin 2) * 64 + 1 * q.val = q.val; rw [e3]; omega

/-- Element (p, q) of the result's block at grid point t is element (10000·t + p, q) of the result array. -/
theorem mm0_out_block_index (t : Fin cfg0.N) (p : Fin 10000) (q : Fin 64) (h : t.val * 10000 + p.val < 100000) :
    ((cfg0.win 2).blk t).view.emb (ix2 p q) = ix2 ⟨t.val * 10000 + p.val, h⟩ q := by
  obtain ⟨-, -, -, -, e4, e5⟩ := mm0_block_indices t
  funext a; apply Fin.ext
  match a with
  | ⟨0, _⟩ => show win0_2.index t (0 : Fin 2) * 10000 + 1 * p.val = t.val * 10000 + p.val; rw [e4]; omega
  | ⟨1, _⟩ => show win0_2.index t (1 : Fin 2) * 64 + 1 * q.val = q.val; rw [e5]; omega

/-- An index of the result array is in the result's block at grid point t iff, on each axis, its coordinate is within the
    block's extent from the block's first coordinate. -/
theorem mm0_mem_out_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v33).slice (win0_2.rect t)).set ↔ _
  rw [View.set_slice_whole, Rect.mem_set_unit]
  exact Iff.rfl

/-- Every index of the result array lies in the block of the grid point that handles its row: row r belongs to point
    r / 10000, and every point writes its block back. -/
theorem mm0_rows_covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  have ht : (i 0).val / 10000 < grid0.N := by rw [hN]; omega
  refine ⟨⟨(i 0).val / 10000, ht⟩, flush0_2 _, ?_⟩
  obtain ⟨-, -, -, -, e4, e5⟩ := mm0_block_indices ⟨(i 0).val / 10000, ht⟩
  rw [mm0_mem_out_block]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, ht⟩ (1 : Fin 2) * 64 ≤ (i 1).val
      ∧ (i 1).val < win0_2.index ⟨(i 0).val / 10000, ht⟩ (1 : Fin 2) * 64 + 64
    rw [e5]; omega

/-! ## From the blocks to the array -/

/-- Grid point t writes back block t of the whole product: the product of rows 10000·t … 10000·t + 9999 of the left
    array with the right array is those rows of the product of the whole arrays. -/
theorem mm0_written_back (c : Dev nD) (t : Fin cfg0.N) :
    (dat0 (F := Ideal) V c).flushed 2 t = ((cfg0.win 2).blk t).view.read (Elt Ideal)
      (Cert.Lib.MatProd.prod (M := 100000) (K := 128) (N := 64) (V c main_arg0) (V c main_arg2)) := by
  show (cfg0.win 2).cut (grid0.coords t) ((dat0 V c).after 2 t) = _
  rw [after0_2]
  unfold out0_2
  rw [View.canon_unit_zero mm0_zero_offsets]
  simp only [View.ld_unit_zero (S := S10000x128) mm0_zero_offsets, View.ld_unit_zero (S := S128x64) mm0_zero_offsets]
  rw [mm0_payload_eq_prod (iblk0 V c 0 t) (iblk0 V c 1 t)]
  funext j
  obtain ⟨p, q, rfl⟩ : ∃ (p : Fin 10000) (q : Fin 64), j = ix2 p q := ⟨j 0, j 1, eq_ix2 j⟩
  have hN : grid0.N = 10 := N_0
  have ht : t.val < grid0.N := t.isLt
  have h : t.val * 10000 + p.val < 100000 := by have := p.isLt; omega
  show Cert.Lib.MatProd.prod (M := 10000) (K := 128) (N := 64) (iblk0 V c 0 t) (iblk0 V c 1 t) (ix2 p q)
    = Cert.Lib.MatProd.prod (M := 100000) (K := 128) (N := 64) (V c main_arg0) (V c main_arg2) (((cfg0.win 2).blk t).view.emb (ix2 p q))
  rw [mm0_out_block_index t p q h]
  exact Cert.Lib.MatProd.prod_rows _ _ _ _ t.val p q h (fun k => mm0_left_block V c t p k h) (fun k => mm0_right_block V c t k q)

/-- After the launch the result array is the product of the two input arrays as the launch found them. -/
theorem arr0 (c : Dev nD) : (dat0 (F := Ideal) V c).arrAt 2 cfg0.N
    = Cert.Lib.MatProd.prod (M := 100000) (K := 128) (N := 64) (V c main_arg0) (V c main_arg2) :=
  (dat0 (F := Ideal) V c).arrAt_eq_of_cover 2 _ (fun t _ => mm0_written_back V c t) mm0_rows_covered

end Cert.KernelIdeal.Val

end
-- ==== Proof.Mm2.lean ====
/-
  The second matrix product of the kernel (the first layer's activations times the second layer's weights), as one function of whole arrays.

  The launch runs over ten grid points. Point t takes rows 10000·t … 10000·t + 9999 of the left array (100000 × 64) and
  the whole right array (64 × 64), and writes rows 10000·t … 10000·t + 9999 of the result (100000 × 64). What a point
  computes is the product of its block of rows with the right array, accumulated from zero, both operands rounded to
  bf16 first (after a reshape of the block to its own shape, which changes nothing). At the ideal values rounding is the
  identity and a product accumulated from zero is the plain product `Cert.Lib.MatProd.prod`. Entry (p, q) of the
  product of a block of rows is entry (10000·t + p, q) of the product of the whole arrays, so each point writes back its
  own block of the whole product, and the ten blocks cover every row: after the launch the result array is `prod` of the
  two input arrays as the launch found them.
-/
import proofs.«106903_j8074538516509_1_alg».proof.Proof.Gen.KernelIdeal.Frame
import proofs.«106903_j8074538516509_1_alg».proof.Proof.LibMatProd
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## What one grid point computes -/

/-- The body loads and stores whole blocks: the offsets of its accesses are zero on both axes. -/
theorem mm2_zero_offsets : (![0, 0] : Fin 2 → Nat) = fun _ => 0 := funext fun a => by fin_cases a <;> rfl

/-- The contraction pairs axis 1 of the left operand with axis 0 of the right one. At an output index (row, column) and
    a contraction index k, the left operand is read at (row, k) … -/
theorem mm2_lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem mm2_lhs_contr (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- … and the right operand at (k, column). -/
theorem mm2_rhs_contr (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem mm2_rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- What the body stores is the plain product of the two blocks it loaded: rounding the operands to bf16 is the identity
    at the ideal values, a reshape to the same shape is the identity, and the accumulator starts at zero. -/
theorem mm2_payload_eq_prod (x0 : Vec Ideal S10000x64 .f32) (x1 : Vec Ideal S64x64 .f32) :
    k2_pay1 x0 x1 = Cert.Lib.MatProd.prod (M := 10000) (K := 64) (N := 64) x0 x1 := by
  unfold k2_pay1
  refine (Cert.Lib.MatProd.matmul_zero_eq_prod dot_S10000x64_S64x64_S10000x64_1_0_0_1_n_n rfl rfl
    mm2_lhs_row mm2_lhs_contr mm2_rhs_contr mm2_rhs_col none (truncf .bf16 (shapeCast S10000x64 x0 shapeCasts_S10000x64_S10000x64) bitsLt_bf16_f32) (truncf .bf16 x1 bitsLt_bf16_f32)).trans ?_
  exact congrArg (fun l => Cert.Lib.MatProd.prod (M := 10000) (K := 64) (N := 64) l x1) (shapeCast_self x0 shapeCasts_S10000x64_S10000x64)

/-! ## Where the blocks sit in the arrays -/

/-- The block indices at grid point t: the left operand's and the result's blocks are block t along the rows and block 0
    along the columns; the right operand's block is block 0 on both axes (its block is its whole array). -/
theorem mm2_block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at grid point t holds rows 10000·t … 10000·t + 9999 of the left array. -/
theorem mm2_left_block (c : Dev nD) (t : Fin cfg2.N) (p : Fin 10000) (k : Fin 64) (h : t.val * 10000 + p.val < 100000) :
    iblk2 V c 0 t (ix2 p k) = V c main_v47 (ix2 ⟨t.val * 10000 + p.val, h⟩ k) := by
  obtain ⟨e0, e1, -, -, -, -⟩ := mm2_block_indices t
  show V c main_v47 (((cfg2.win 0).blk t).view.emb (ix2 p k)) = _
  refine congrArg (V c main_v47) ?_
  funext a; apply Fin.ext
  match a with
  | ⟨0, _⟩ => show win2_0.index t (0 : Fin 2) * 10000 + 1 * p.val = t.val * 10000 + p.val; rw [e0]; omega
  | ⟨1, _⟩ => show win2_0.index t (1 : Fin 2) * 64 + 1 * k.val = k.val; rw [e1]; omega

/-- The right operand's block is the whole right array, at every grid point. -/
theorem mm2_right_block (c : Dev nD) (t : Fin cfg2.N) (k : Fin 64) (q : Fin 64) :
    iblk2 V c 1 t (ix2 k q) = V c main_arg4 (ix2 k q) := by
  obtain ⟨-, -, e2, e3, -, -⟩ := mm2_block_indices t
  show V c main_arg4 (((cfg2.win 1).blk t).view.emb (ix2 k q)) = _
  refine congrArg (V c main_arg4) ?_
  funext a; apply Fin.ext
  match a with
  | ⟨0, _⟩ => show win2_1.index t (0 : Fin 2) * 64 + 1 * k.val = k.val; rw [e2]; omega
  | ⟨1, _⟩ => show win2_1.index t (1 : Fin 2) * 64 + 1 * q.val = q.val; rw [e3]; omega

/-- Element (p, q) of the result's block at grid point t is element (10000·t + p, q) of the result array. -/
theorem mm2_out_block_index (t : Fin cfg2.N) (p : Fin 10000) (q : Fin 64) (h : t.val * 10000 + p.val < 100000) :
    ((cfg2.win 2).blk t).view.emb (ix2 p q) = ix2 ⟨t.val * 10000 + p.val, h⟩ q := by
  obtain ⟨-, -, -, -, e4, e5⟩ := mm2_block_indices t
  funext a; apply Fin.ext
  match a with
  | ⟨0, _⟩ => show win2_2.index t (0 : Fin 2) * 10000 + 1 * p.val = t.val * 10000 + p.val; rw [e4]; omega
  | ⟨1, _⟩ => show win2_2.index t (1 : Fin 2) * 64 + 1 * q.val = q.val; rw [e5]; omega

/-- An index of the result array is in the result's block at grid point t iff, on each axis, its coordinate is within the
    block's extent from the block's first coordinate. -/
theorem mm2_mem_out_block (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v48).slice (win2_2.rect t)).set ↔ _
  rw [View.set_slice_whole, Rect.mem_set_unit]
  exact Iff.rfl

/-- Every index of the result array lies in the block of the grid point that handles its row: row r belongs to point
    r / 10000, and every point writes its block back. -/
theorem mm2_rows_covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 10 := N_2
  have ht : (i 0).val / 10000 < grid2.N := by rw [hN]; omega
  refine ⟨⟨(i 0).val / 10000, ht⟩, flush2_2 _, ?_⟩
  obtain ⟨-, -, -, -, e4, e5⟩ := mm2_block_indices ⟨(i 0).val / 10000, ht⟩
  rw [mm2_mem_out_block]
  intro a
  match a with
  | ⟨0, _⟩ =>
    show win2_2.index ⟨(i 0).val / 10000, ht⟩ (0 : Fin 2) * 10000 ≤ (i 0).val
      ∧ (i 0).val < win2_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win2_2.index ⟨(i 0).val / 10000, ht⟩ (1 : Fin 2) * 64 ≤ (i 1).val
      ∧ (i 1).val < win2_2.index ⟨(i 0).val / 10000, ht⟩ (1 : Fin 2) * 64 + 64
    rw [e5]; omega

/-! ## From the blocks to the array -/

/-- Grid point t writes back block t of the whole product: the product of rows 10000·t … 10000·t + 9999 of the left
    array with the right array is those rows of the product of the whole arrays. -/
theorem mm2_written_back (c : Dev nD) (t : Fin cfg2.N) :
    (dat2 (F := Ideal) V c).flushed 2 t = ((cfg2.win 2).blk t).view.read (Elt Ideal)
      (Cert.Lib.MatProd.prod (M := 100000) (K := 64) (N := 64) (V c main_v47) (V c main_arg4)) := by
  show (cfg2.win 2).cut (grid2.coords t) ((dat2 V c).after 2 t) = _
  rw [after2_2]
  unfold out2_2
  rw [View.canon_unit_zero mm2_zero_offsets]
  simp only [View.ld_unit_zero (S := S10000x64) mm2_zero_offsets, View.ld_unit_zero (S := S64x64) mm2_zero_offsets]
  rw [mm2_payload_eq_prod (iblk2 V c 0 t) (iblk2 V c 1 t)]
  funext j
  obtain ⟨p, q, rfl⟩ : ∃ (p : Fin 10000) (q : Fin 64), j = ix2 p q := ⟨j 0, j 1, eq_ix2 j⟩
  have hN : grid2.N = 10 := N_2
  have ht : t.val < grid2.N := t.isLt
  have h : t.val * 10000 + p.val < 100000 := by have := p.isLt; omega
  show Cert.Lib.MatProd.prod (M := 10000) (K := 64) (N := 64) (iblk2 V c 0 t) (iblk2 V c 1 t) (ix2 p q)
    = Cert.Lib.MatProd.prod (M := 100000) (K := 64) (N := 64) (V c main_v47) (V c main_arg4) (((cfg2.win 2).blk t).view.emb (ix2 p q))
  rw [mm2_out_block_index t p q h]
  exact Cert.Lib.MatProd.prod_rows _ _ _ _ t.val p q h (fun k => mm2_left_block V c t p k h) (fun k => mm2_right_block V c t k q)

/-- After the launch the result array is the product of the two input arrays as the launch found them. -/
theorem arr2 (c : Dev nD) : (dat2 (F := Ideal) V c).arrAt 2 cfg2.N
    = Cert.Lib.MatProd.prod (M := 100000) (K := 64) (N := 64) (V c main_v47) (V c main_arg4) :=
  (dat2 (F := Ideal) V c).arrAt_eq_of_cover 2 _ (fun t _ => mm2_written_back V c t) mm2_rows_covered

end Cert.KernelIdeal.Val

end
-- ==== Proof.Mm4.lean ====
/-
  The third matrix product of the kernel (the second layer's activations times the output layer's weights), as one function of whole arrays.

  The launch runs over ten grid points. Point t takes rows 10000·t … 10000·t + 9999 of the left array (100000 × 64) and
  the whole right array (64 × 40), and writes rows 10000·t … 10000·t + 9999 of the result (100000 × 40). What a point
  computes is the product of its block of rows with the right array, accumulated from zero, both operands rounded to
  bf16 first (after a reshape of the block to its own shape, which changes nothing). At the ideal values rounding is the
  identity and a product accumulated from zero is the plain product `Cert.Lib.MatProd.prod`. Entry (p, q) of the
  product of a block of rows is entry (10000·t + p, q) of the product of the whole arrays, so each point writes back its
  own block of the whole product, and the ten blocks cover every row: after the launch the result array is `prod` of the
  two input arrays as the launch found them.
-/
import proofs.«106903_j8074538516509_1_alg».proof.Proof.Gen.KernelIdeal.Frame
import proofs.«106903_j8074538516509_1_alg».proof.Proof.LibMatProd
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## What one grid point computes -/

/-- The body loads and stores whole blocks: the offsets of its accesses are zero on both axes. -/
theorem mm4_zero_offsets : (![0, 0] : Fin 2 → Nat) = fun _ => 0 := funext fun a => by fin_cases a <;> rfl

/-- The contraction pairs axis 1 of the left operand with axis 0 of the right one. At an output index (row, column) and
    a contraction index k, the left operand is read at (row, k) … -/
theorem mm4_lhs_row (i : S10000x40.Idx) (q : dot_S10000x64_S64x40_S10000x40_1_0_0_1_n_n.contr.Idx) :
    (dot_S10000x64_S64x40_S10000x40_1_0_0_1_n_n.lhsIdx i q 0).val = (i 0).val := by
  unfold DotDims.lhsIdx
  rw [dif_neg (show ¬(0 : Fin S10000x64.rank) ∈ dot_S10000x64_S64x40_S10000x40_1_0_0_1_n_n.lhsBatch by decide), dif_pos (show (0 : Fin S10000x64.rank) ∈ dot_S10000x64_S64x40_S10000x40_1_0_0_1_n_n.lhsNonContracting by decide)]
  rfl
theorem mm4_lhs_contr (i : S10000x40.Idx) (q : dot_S10000x64_S64x40_S10000x40_1_0_0_1_n_n.contr.Idx) :
    (dot_S10000x64_S64x40_S10000x40_1_0_0_1_n_n.lhsIdx i q 1).val = (q ⟨0, by decide⟩).val :=
  dot_S10000x64_S64x40_S10000x40_1_0_0_1_n_n.lhsIdx_val_of_single rfl i q
/-- … and the right operand at (k, column). -/
theorem mm4_rhs_contr (i : S10000x40.Idx) (q : dot_S10000x64_S64x40_S10000x40_1_0_0_1_n_n.contr.Idx) :
    (dot_S10000x64_S64x40_S10000x40_1_0_0_1_n_n.rhsIdx i q 0).val = (q ⟨0, by decide⟩).val :=
  dot_S10000x64_S64x40_S10000x40_1_0_0_1_n_n.rhsIdx_val_of_single rfl i q
theorem mm4_rhs_col (i : S10000x40.Idx) (q : dot_S10000x64_S64x40_S10000x40_1_0_0_1_n_n.contr.Idx) :
    (dot_S10000x64_S64x40_S10000x40_1_0_0_1_n_n.rhsIdx i q 1).val = (i 1).val := by
  unfold DotDims.rhsIdx
  rw [dif_neg (show ¬(1 : Fin S64x40.rank) ∈ dot_S10000x64_S64x40_S10000x40_1_0_0_1_n_n.rhsBatch by decide), dif_pos (show (1 : Fin S64x40.rank) ∈ dot_S10000x64_S64x40_S10000x40_1_0_0_1_n_n.rhsNonContracting by decide)]
  rfl

/-- What the body stores is the plain product of the two blocks it loaded: rounding the operands to bf16 is the identity
    at the ideal values, a reshape to the same shape is the identity, and the accumulator starts at zero. -/
theorem mm4_payload_eq_prod (x0 : Vec Ideal S10000x64 .f32) (x1 : Vec Ideal S64x40 .f32) :
    k4_pay1 x0 x1 = Cert.Lib.MatProd.prod (M := 10000) (K := 64) (N := 40) x0 x1 := by
  unfold k4_pay1
  refine (Cert.Lib.MatProd.matmul_zero_eq_prod dot_S10000x64_S64x40_S10000x40_1_0_0_1_n_n rfl rfl
    mm4_lhs_row mm4_lhs_contr mm4_rhs_contr mm4_rhs_col none (truncf .bf16 (shapeCast S10000x64 x0 shapeCasts_S10000x64_S10000x64) bitsLt_bf16_f32) (truncf .bf16 x1 bitsLt_bf16_f32)).trans ?_
  exact congrArg (fun l => Cert.Lib.MatProd.prod (M := 10000) (K := 64) (N := 40) l x1) (shapeCast_self x0 shapeCasts_S10000x64_S10000x64)

/-! ## Where the blocks sit in the arrays -/

/-- The block indices at grid point t: the left operand's and the result's blocks are block t along the rows and block 0
    along the columns; the right operand's block is block 0 on both axes (its block is its whole array). -/
theorem mm4_block_indices : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left operand's block at grid point t holds rows 10000·t … 10000·t + 9999 of the left array. -/
theorem mm4_left_block (c : Dev nD) (t : Fin cfg4.N) (p : Fin 10000) (k : Fin 64) (h : t.val * 10000 + p.val < 100000) :
    iblk4 V c 0 t (ix2 p k) = V c main_v62 (ix2 ⟨t.val * 10000 + p.val, h⟩ k) := by
  obtain ⟨e0, e1, -, -, -, -⟩ := mm4_block_indices t
  show V c main_v62 (((cfg4.win 0).blk t).view.emb (ix2 p k)) = _
  refine congrArg (V c main_v62) ?_
  funext a; apply Fin.ext
  match a with
  | ⟨0, _⟩ => show win4_0.index t (0 : Fin 2) * 10000 + 1 * p.val = t.val * 10000 + p.val; rw [e0]; omega
  | ⟨1, _⟩ => show win4_0.index t (1 : Fin 2) * 64 + 1 * k.val = k.val; rw [e1]; omega

/-- The right operand's block is the whole right array, at every grid point. -/
theorem mm4_right_block (c : Dev nD) (t : Fin cfg4.N) (k : Fin 64) (q : Fin 40) :
    iblk4 V c 1 t (ix2 k q) = V c main_arg6 (ix2 k q) := by
  obtain ⟨-, -, e2, e3, -, -⟩ := mm4_block_indices t
  show V c main_arg6 (((cfg4.win 1).blk t).view.emb (ix2 k q)) = _
  refine congrArg (V c main_arg6) ?_
  funext a; apply Fin.ext
  match a with
  | ⟨0, _⟩ => show win4_1.index t (0 : Fin 2) * 64 + 1 * k.val = k.val; rw [e2]; omega
  | ⟨1, _⟩ => show win4_1.index t (1 : Fin 2) * 40 + 1 * q.val = q.val; rw [e3]; omega

/-- Element (p, q) of the result's block at grid point t is element (10000·t + p, q) of the result array. -/
theorem mm4_out_block_index (t : Fin cfg4.N) (p : Fin 10000) (q : Fin 40) (h : t.val * 10000 + p.val < 100000) :
    ((cfg4.win 2).blk t).view.emb (ix2 p q) = ix2 ⟨t.val * 10000 + p.val, h⟩ q := by
  obtain ⟨-, -, -, -, e4, e5⟩ := mm4_block_indices t
  funext a; apply Fin.ext
  match a with
  | ⟨0, _⟩ => show win4_2.index t (0 : Fin 2) * 10000 + 1 * p.val = t.val * 10000 + p.val; rw [e4]; omega
  | ⟨1, _⟩ => show win4_2.index t (1 : Fin 2) * 40 + 1 * q.val = q.val; rw [e5]; omega

/-- An index of the result array is in the result's block at grid point t iff, on each axis, its coordinate is within the
    block's extent from the block's first coordinate. -/
theorem mm4_mem_out_block (t : Fin cfg4.N) (i : S100000x40.Idx) :
    i ∈ ((cfg4.win 2).blk t).view.set ↔ ∀ a : Fin 2, win4_2.index t a * S10000x40.size a ≤ (i a).val ∧ (i a).val < win4_2.index t a * S10000x40.size a + S10000x40.size a := by
  show i ∈ ((View.whole main_v63).slice (win4_2.rect t)).set ↔ _
  rw [View.set_slice_whole, Rect.mem_set_unit]
  exact Iff.rfl

/-- Every index of the result array lies in the block of the grid point that handles its row: row r belongs to point
    r / 10000, and every point writes its block back. -/
theorem mm4_rows_covered (i : S100000x40.Idx) :
    ∃ t : Fin cfg4.N, (cfg4.win 2).flush t = true ∧ i ∈ ((cfg4.win 2).blk t).view.set := by
  have hi0 : (i 0).val < 100000 := (i 0).isLt
  have hi1 : (i 1).val < 40 := (i 1).isLt
  have hN : grid4.N = 10 := N_4
  have ht : (i 0).val / 10000 < grid4.N := by rw [hN]; omega
  refine ⟨⟨(i 0).val / 10000, ht⟩, flush4_2 _, ?_⟩
  obtain ⟨-, -, -, -, e4, e5⟩ := mm4_block_indices ⟨(i 0).val / 10000, ht⟩
  rw [mm4_mem_out_block]
  intro a
  match a with
  | ⟨0, _⟩ =>
    show win4_2.index ⟨(i 0).val / 10000, ht⟩ (0 : Fin 2) * 10000 ≤ (i 0).val
      ∧ (i 0).val < win4_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win4_2.index ⟨(i 0).val / 10000, ht⟩ (1 : Fin 2) * 40 ≤ (i 1).val
      ∧ (i 1).val < win4_2.index ⟨(i 0).val / 10000, ht⟩ (1 : Fin 2) * 40 + 40
    rw [e5]; omega

/-! ## From the blocks to the array -/

/-- Grid point t writes back block t of the whole product: the product of rows 10000·t … 10000·t + 9999 of the left
    array with the right array is those rows of the product of the whole arrays. -/
theorem mm4_written_back (c : Dev nD) (t : Fin cfg4.N) :
    (dat4 (F := Ideal) V c).flushed 2 t = ((cfg4.win 2).blk t).view.read (Elt Ideal)
      (Cert.Lib.MatProd.prod (M := 100000) (K := 64) (N := 40) (V c main_v62) (V c main_arg6)) := by
  show (cfg4.win 2).cut (grid4.coords t) ((dat4 V c).after 2 t) = _
  rw [after4_2]
  unfold out4_2
  rw [View.canon_unit_zero mm4_zero_offsets]
  simp only [View.ld_unit_zero (S := S10000x64) mm4_zero_offsets, View.ld_unit_zero (S := S64x40) mm4_zero_offsets]
  rw [mm4_payload_eq_prod (iblk4 V c 0 t) (iblk4 V c 1 t)]
  funext j
  obtain ⟨p, q, rfl⟩ : ∃ (p : Fin 10000) (q : Fin 40), j = ix2 p q := ⟨j 0, j 1, eq_ix2 j⟩
  have hN : grid4.N = 10 := N_4
  have ht : t.val < grid4.N := t.isLt
  have h : t.val * 10000 + p.val < 100000 := by have := p.isLt; omega
  show Cert.Lib.MatProd.prod (M := 10000) (K := 64) (N := 40) (iblk4 V c 0 t) (iblk4 V c 1 t) (ix2 p q)
    = Cert.Lib.MatProd.prod (M := 100000) (K := 64) (N := 40) (V c main_v62) (V c main_arg6) (((cfg4.win 2).blk t).view.emb (ix2 p q))
  rw [mm4_out_block_index t p q h]
  exact Cert.Lib.MatProd.prod_rows _ _ _ _ t.val p q h (fun k => mm4_left_block V c t p k h) (fun k => mm4_right_block V c t k q)

/-- After the launch the result array is the product of the two input arrays as the launch found them. -/
theorem arr4 (c : Dev nD) : (dat4 (F := Ideal) V c).arrAt 2 cfg4.N
    = Cert.Lib.MatProd.prod (M := 100000) (K := 64) (N := 40) (V c main_v62) (V c main_arg6) :=
  (dat4 (F := Ideal) V c).arrAt_eq_of_cover 2 _ (fun t _ => mm4_written_back V c t) mm4_rows_covered

end Cert.KernelIdeal.Val

end
-- ==== Proof.Sw1.lean ====
/-
  The first bias-plus-swish launch, as one function of whole arrays.

  The launch runs over ten grid points. Point t takes rows 10000·t … 10000·t + 9999 of the 100000 × 64 input
  array, the whole 1 × 64 bias row, and writes the same rows of the output array. On its block the body
  computes, element by element, y · logistic y with y the input element plus the bias entry of its lane. Hence
  the output array ends holding biasSwish of the input array and the bias row: each point writes the block of
  that one function that its rows select, and the ten blocks of rows cover the array.
-/
import proofs.«106903_j8074538516509_1_alg».proof.Proof.Gen.KernelIdeal.Frame
import proofs.«106903_j8074538516509_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The offset pair (0, 0) is the zero function on the two axes. -/
theorem sw1_zero_off : (![0, 0] : Fin 2 → Nat) = fun _ => 0 := funext fun a => by fin_cases a <;> rfl

/-- The body's arithmetic at one element (p, q) of a block: with y the block's element plus the bias row's
    entry at lane q (the bias row is repeated over the rows, and the two casts keep their shapes), the result
    is y · logistic y. -/
theorem sw1_pay_apply (x0 : Vec Ideal S10000x64 .f32) (x1 : Vec Ideal S1x64 .f32) (p : Fin 10000) (q : Fin 64) :
    k1_pay1 x0 x1 (ix2 p q) = Cert.Gcn.swish (x0 (ix2 p q) + x1 (ix2 (0 : Fin 1) q)) := by
  unfold k1_pay1
  have e0 : shapeCast S10000x64 x0 shapeCasts_S10000x64_S10000x64 = x0 := shapeCast_self _ _
  have e1 : shapeCast S1x64 x1 shapeCasts_S1x64_S1x64 = x1 := shapeCast_self _ _
  have e2 : broadcastTo S10000x64 x1 broadcasts_S1x64_S10000x64 (ix2 p q) = x1 (ix2 (0 : Fin 1) q) :=
    broadcastTo_1b_ab_apply x1 _ p q
  show (shapeCast S10000x64 x0 shapeCasts_S10000x64_S10000x64 (ix2 p q)
        + broadcastTo S10000x64 (shapeCast S1x64 x1 shapeCasts_S1x64_S1x64) broadcasts_S1x64_S10000x64 (ix2 p q))
      * Ideal.logistic (shapeCast S10000x64 x0 shapeCasts_S10000x64_S10000x64 (ix2 p q)
        + broadcastTo S10000x64 (shapeCast S1x64 x1 shapeCasts_S1x64_S1x64) broadcasts_S1x64_S10000x64 (ix2 p q)) = _
  rw [e0, e1, e2]
  rfl

/-- The block index maps, decided over the ten grid points: the input and the output windows sit at block t
    along the rows and block 0 along the lanes; the bias window sits at block (0, 0) at every point. -/
theorem sw1_idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- A grid point is one of ten. -/
theorem sw1_point_lt (t : Fin cfg1.N) : t.val < 10 := lt_of_lt_of_eq t.isLt N_1

/-- Row p of the block at grid point t is row 10000·t + p of the array. -/
def sw1_row (t : Fin cfg1.N) (p : Fin 10000) : Fin 100000 :=
  ⟨t.val * 10000 + p.val, by have := sw1_point_lt t; have := p.isLt; omega⟩

/-- The input block at point t, at (p, q), is the input array at (10000·t + p, q). -/
theorem sw1_in_apply (c : Dev nD) (t : Fin cfg1.N) (p : Fin 10000) (q : Fin 64) :
    iblk1 V c 0 t (ix2 p q) = V c main_v45 (ix2 (sw1_row t p) q) := by
  obtain ⟨e0, e1, -, -, -, -⟩ := sw1_idx_facts t
  show V c main_v45 (((cfg1.win 0).blk t).view.emb (ix2 p q)) = _
  refine congrArg (V c main_v45) (funext fun a => Fin.ext ?_)
  match a with
  | ⟨0, _⟩ => show win1_0.index t (0 : Fin 2) * 10000 + 1 * p.val = t.val * 10000 + p.val; omega
  | ⟨1, _⟩ => show win1_0.index t (1 : Fin 2) * 64 + 1 * q.val = q.val; omega

/-- The bias block at any point, at (0, q), is the bias array at (0, q). -/
theorem sw1_bias_apply (c : Dev nD) (t : Fin cfg1.N) (q : Fin 64) :
    iblk1 V c 1 t (ix2 (0 : Fin 1) q) = V c main_v46 (ix2 (0 : Fin 1) q) := by
  obtain ⟨-, -, e2, e3, -, -⟩ := sw1_idx_facts t
  show V c main_v46 (((cfg1.win 1).blk t).view.emb (ix2 (0 : Fin 1) q)) = _
  refine congrArg (V c main_v46) (funext fun a => Fin.ext ?_)
  match a with
  | ⟨0, _⟩ => show win1_1.index t (0 : Fin 2) * 1 + 1 * 0 = 0; omega
  | ⟨1, _⟩ => show win1_1.index t (1 : Fin 2) * 64 + 1 * q.val = q.val; omega

/-- The output block at point t, at (p, q), sits in the output array at (10000·t + p, q). -/
theorem sw1_out_emb (t : Fin cfg1.N) (p : Fin 10000) (q : Fin 64) :
    ((cfg1.win 2).blk t).view.emb (ix2 p q) = ix2 (sw1_row t p) q := by
  obtain ⟨-, -, -, -, e4, e5⟩ := sw1_idx_facts t
  refine funext fun a => Fin.ext ?_
  match a with
  | ⟨0, _⟩ => show win1_2.index t (0 : Fin 2) * 10000 + 1 * p.val = t.val * 10000 + p.val; omega
  | ⟨1, _⟩ => show win1_2.index t (1 : Fin 2) * 64 + 1 * q.val = q.val; omega

/-- What point t writes back is the block of biasSwish (input array, bias row) that its rows select. -/
theorem sw1_flushed_eq (c : Dev nD) (t : Fin cfg1.N) :
    (dat1 (F := Ideal) V c).flushed 2 t = ((cfg1.win 2).blk t).view.read (Elt Ideal)
      (Cert.Gcn.biasSwish (a := 100000) (b := 64) (V c main_v45) (fun k => V c main_v46 (ix2 (0 : Fin 1) k))) := by
  show (cfg1.win 2).cut (grid1.coords t) ((dat1 (F := Ideal) V c).after 2 t) = _
  rw [after1_2]
  unfold out1_2
  rw [View.canon_unit_zero sw1_zero_off]
  simp only [View.ld_unit_zero (S := S10000x64) sw1_zero_off, View.ld_unit_zero (S := S1x64) sw1_zero_off]
  funext j
  obtain ⟨p, q, rfl⟩ : ∃ (p : Fin 10000) (q : Fin 64), j = ix2 p q := ⟨j 0, j 1, eq_ix2 j⟩
  show k1_pay1 (iblk1 V c 0 t) (iblk1 V c 1 t) (ix2 p q)
    = Cert.Gcn.biasSwish (a := 100000) (b := 64) (V c main_v45) (fun k => V c main_v46 (ix2 (0 : Fin 1) k))
        (((cfg1.win 2).blk t).view.emb (ix2 p q))
  rw [sw1_out_emb t p q, Cert.Gcn.biasSwish_apply]
  refine (sw1_pay_apply (iblk1 V c 0 t) (iblk1 V c 1 t) p q).trans ?_
  rw [sw1_in_apply V c t p q, sw1_bias_apply V c t q]

/-- An index of the output array lies in point t's block iff, on each axis, it lies in the block's range. -/
theorem sw1_mem_blk (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v47).slice (win1_2.rect t)).set ↔ _
  rw [View.set_slice_whole, Rect.mem_set_unit]
  exact Iff.rfl

/-- Every index of the output array lies in some point's block: row r lies in the block of point r / 10000. -/
theorem sw1_cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨-, -, -, -, e4, e5⟩ := sw1_idx_facts t
  refine ⟨t, flush1_2 t, ?_⟩
  rw [sw1_mem_blk]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 64 ≤ (i 1).val ∧ (i 1).val < win1_2.index t (1 : Fin 2) * 64 + 64
    omega

/-- After the launch the output array is biasSwish of the input array and the bias row. -/
theorem arr1 (c : Dev nD) : (dat1 (F := Ideal) V c).arrAt 2 cfg1.N
    = Cert.Gcn.biasSwish (a := 100000) (b := 64) (V c main_v45) (fun k => V c main_v46 (ix2 (0 : Fin 1) k)) :=
  (dat1 (F := Ideal) V c).arrAt_eq_of_cover 2 _ (fun t _ => sw1_flushed_eq V c t) sw1_cover

end Cert.KernelIdeal.Val

end
-- ==== Proof.Sw3.lean ====
/-
  The second bias-plus-swish launch, as one function of whole arrays.

  The launch runs over ten grid points. Point t takes rows 10000·t … 10000·t + 9999 of the 100000 × 64 input
  array, the whole 1 × 64 bias row, and writes the same rows of the output array. On its block the body
  computes, element by element, y · logistic y with y the input element plus the bias entry of its lane. Hence
  the output array ends holding biasSwish of the input array and the bias row: each point writes the block of
  that one function that its rows select, and the ten blocks of rows cover the array.
-/
import proofs.«106903_j8074538516509_1_alg».proof.Proof.Gen.KernelIdeal.Frame
import proofs.«106903_j8074538516509_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The offset pair (0, 0) is the zero function on the two axes. -/
theorem sw3_zero_off : (![0, 0] : Fin 2 → Nat) = fun _ => 0 := funext fun a => by fin_cases a <;> rfl

/-- The body's arithmetic at one element (p, q) of a block: with y the block's element plus the bias row's
    entry at lane q (the bias row is repeated over the rows, and the two casts keep their shapes), the result
    is y · logistic y. -/
theorem sw3_pay_apply (x0 : Vec Ideal S10000x64 .f32) (x1 : Vec Ideal S1x64 .f32) (p : Fin 10000) (q : Fin 64) :
    k3_pay1 x0 x1 (ix2 p q) = Cert.Gcn.swish (x0 (ix2 p q) + x1 (ix2 (0 : Fin 1) q)) := by
  unfold k3_pay1
  have e0 : shapeCast S10000x64 x0 shapeCasts_S10000x64_S10000x64 = x0 := shapeCast_self _ _
  have e1 : shapeCast S1x64 x1 shapeCasts_S1x64_S1x64 = x1 := shapeCast_self _ _
  have e2 : broadcastTo S10000x64 x1 broadcasts_S1x64_S10000x64 (ix2 p q) = x1 (ix2 (0 : Fin 1) q) :=
    broadcastTo_1b_ab_apply x1 _ p q
  show (shapeCast S10000x64 x0 shapeCasts_S10000x64_S10000x64 (ix2 p q)
        + broadcastTo S10000x64 (shapeCast S1x64 x1 shapeCasts_S1x64_S1x64) broadcasts_S1x64_S10000x64 (ix2 p q))
      * Ideal.logistic (shapeCast S10000x64 x0 shapeCasts_S10000x64_S10000x64 (ix2 p q)
        + broadcastTo S10000x64 (shapeCast S1x64 x1 shapeCasts_S1x64_S1x64) broadcasts_S1x64_S10000x64 (ix2 p q)) = _
  rw [e0, e1, e2]
  rfl

/-- The block index maps, decided over the ten grid points: the input and the output windows sit at block t
    along the rows and block 0 along the lanes; the bias window sits at block (0, 0) at every point. -/
theorem sw3_idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- A grid point is one of ten. -/
theorem sw3_point_lt (t : Fin cfg3.N) : t.val < 10 := lt_of_lt_of_eq t.isLt N_3

/-- Row p of the block at grid point t is row 10000·t + p of the array. -/
def sw3_row (t : Fin cfg3.N) (p : Fin 10000) : Fin 100000 :=
  ⟨t.val * 10000 + p.val, by have := sw3_point_lt t; have := p.isLt; omega⟩

/-- The input block at point t, at (p, q), is the input array at (10000·t + p, q). -/
theorem sw3_in_apply (c : Dev nD) (t : Fin cfg3.N) (p : Fin 10000) (q : Fin 64) :
    iblk3 V c 0 t (ix2 p q) = V c main_v60 (ix2 (sw3_row t p) q) := by
  obtain ⟨e0, e1, -, -, -, -⟩ := sw3_idx_facts t
  show V c main_v60 (((cfg3.win 0).blk t).view.emb (ix2 p q)) = _
  refine congrArg (V c main_v60) (funext fun a => Fin.ext ?_)
  match a with
  | ⟨0, _⟩ => show win3_0.index t (0 : Fin 2) * 10000 + 1 * p.val = t.val * 10000 + p.val; omega
  | ⟨1, _⟩ => show win3_0.index t (1 : Fin 2) * 64 + 1 * q.val = q.val; omega

/-- The bias block at any point, at (0, q), is the bias array at (0, q). -/
theorem sw3_bias_apply (c : Dev nD) (t : Fin cfg3.N) (q : Fin 64) :
    iblk3 V c 1 t (ix2 (0 : Fin 1) q) = V c main_v61 (ix2 (0 : Fin 1) q) := by
  obtain ⟨-, -, e2, e3, -, -⟩ := sw3_idx_facts t
  show V c main_v61 (((cfg3.win 1).blk t).view.emb (ix2 (0 : Fin 1) q)) = _
  refine congrArg (V c main_v61) (funext fun a => Fin.ext ?_)
  match a with
  | ⟨0, _⟩ => show win3_1.index t (0 : Fin 2) * 1 + 1 * 0 = 0; omega
  | ⟨1, _⟩ => show win3_1.index t (1 : Fin 2) * 64 + 1 * q.val = q.val; omega

/-- The output block at point t, at (p, q), sits in the output array at (10000·t + p, q). -/
theorem sw3_out_emb (t : Fin cfg3.N) (p : Fin 10000) (q : Fin 64) :
    ((cfg3.win 2).blk t).view.emb (ix2 p q) = ix2 (sw3_row t p) q := by
  obtain ⟨-, -, -, -, e4, e5⟩ := sw3_idx_facts t
  refine funext fun a => Fin.ext ?_
  match a with
  | ⟨0, _⟩ => show win3_2.index t (0 : Fin 2) * 10000 + 1 * p.val = t.val * 10000 + p.val; omega
  | ⟨1, _⟩ => show win3_2.index t (1 : Fin 2) * 64 + 1 * q.val = q.val; omega

/-- What point t writes back is the block of biasSwish (input array, bias row) that its rows select. -/
theorem sw3_flushed_eq (c : Dev nD) (t : Fin cfg3.N) :
    (dat3 (F := Ideal) V c).flushed 2 t = ((cfg3.win 2).blk t).view.read (Elt Ideal)
      (Cert.Gcn.biasSwish (a := 100000) (b := 64) (V c main_v60) (fun k => V c main_v61 (ix2 (0 : Fin 1) k))) := by
  show (cfg3.win 2).cut (grid3.coords t) ((dat3 (F := Ideal) V c).after 2 t) = _
  rw [after3_2]
  unfold out3_2
  rw [View.canon_unit_zero sw3_zero_off]
  simp only [View.ld_unit_zero (S := S10000x64) sw3_zero_off, View.ld_unit_zero (S := S1x64) sw3_zero_off]
  funext j
  obtain ⟨p, q, rfl⟩ : ∃ (p : Fin 10000) (q : Fin 64), j = ix2 p q := ⟨j 0, j 1, eq_ix2 j⟩
  show k3_pay1 (iblk3 V c 0 t) (iblk3 V c 1 t) (ix2 p q)
    = Cert.Gcn.biasSwish (a := 100000) (b := 64) (V c main_v60) (fun k => V c main_v61 (ix2 (0 : Fin 1) k))
        (((cfg3.win 2).blk t).view.emb (ix2 p q))
  rw [sw3_out_emb t p q, Cert.Gcn.biasSwish_apply]
  refine (sw3_pay_apply (iblk3 V c 0 t) (iblk3 V c 1 t) p q).trans ?_
  rw [sw3_in_apply V c t p q, sw3_bias_apply V c t q]

/-- An index of the output array lies in point t's block iff, on each axis, it lies in the block's range. -/
theorem sw3_mem_blk (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v62).slice (win3_2.rect t)).set ↔ _
  rw [View.set_slice_whole, Rect.mem_set_unit]
  exact Iff.rfl

/-- Every index of the output array lies in some point's block: row r lies in the block of point r / 10000. -/
theorem sw3_cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  obtain ⟨t, ht⟩ : ∃ t : Fin cfg3.N, t.val = (i 0).val / 10000 := ⟨⟨(i 0).val / 10000, by rw [hN]; omega⟩, rfl⟩
  obtain ⟨-, -, -, -, e4, e5⟩ := sw3_idx_facts t
  refine ⟨t, flush3_2 t, ?_⟩
  rw [sw3_mem_blk]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 64 ≤ (i 1).val ∧ (i 1).val < win3_2.index t (1 : Fin 2) * 64 + 64
    omega

/-- After the launch the output array is biasSwish of the input array and the bias row. -/
theorem arr3 (c : Dev nD) : (dat3 (F := Ideal) V c).arrAt 2 cfg3.N
    = Cert.Gcn.biasSwish (a := 100000) (b := 64) (V c main_v60) (fun k => V c main_v61 (ix2 (0 : Fin 1) k)) :=
  (dat3 (F := Ideal) V c).arrAt_eq_of_cover 2 _ (fun t _ => sw3_flushed_eq V c t) sw3_cover

end Cert.KernelIdeal.Val

end
-- ==== Proof.Ls5.lean ====
/-
  The sixth kernel launch (bias plus row-wise log-softmax), as one function of whole arrays.

  The launch runs over a grid of 10 points; point `t` reads rows `t · 10000 … t · 10000 + 9999` of the
  `[100000, 40]` input and the whole `[1, 40]` bias row, and writes the same rows of the result. Its body adds the
  bias row to every row of the block, takes each row's maximum `M` and the sum `S` of `exp (v - M)` over the row,
  and writes `(v - M) - log S`. Each entry of the result depends on its own row only, so the blocks the ten points
  write are the blocks of one function of the whole arrays, `Cert.Gcn.biasLogSoftmax`, and together they fill the
  result array.
-/
import proofs.«106903_j8074538516509_1_alg».proof.Proof.Gen.KernelIdeal.Frame
import proofs.«106903_j8074538516509_1_alg».proof.Proof.Spec
import proofs.«106903_j8074538516509_1_alg».proof.Proof.LibRowSoftmax
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Lib.RowSoftmax

variable (V : (c : Dev nD) → (b : Ref sig .tc) → Buf (Elt Ideal) ((c : Thread nD τ).loc b))

/-! ## The body's arithmetic at one entry -/

/-- The chain the kernel prints for a row-wise log-softmax of an `[a, b]` matrix `s` — row maximum, subtract,
    `exp`, row sum, `log` of the column of sums, subtract again, both statistics kept as columns and spread over
    the lanes — read at `(r, j)`: the log-softmax of row `r` at lane `j`. Entry `(r, j)` depends on row `r` only. -/
theorem ls5_logsoftmax_rows_apply {a b : ℕ} (s : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hmax : (0xFF800000#32 : BitVec 32) = FKind.maximumf.neutral .f32 hφ)
    (hadd : (0x00000000#32 : BitVec 32) = FKind.add.neutral .f32 hφ) (r : Fin a) (j : Fin b) :
    subf
        (subf s (broadcastTo ⟨2, ![a, b]⟩ (shapeCast ⟨2, ![a, 1]⟩
          (multiReduction .maximumf [1] ⟨1, ![a]⟩ s 0xFF800000#32 hr hφ hmax) hc) hb))
        (broadcastTo ⟨2, ![a, b]⟩ (log (shapeCast ⟨2, ![a, 1]⟩
          (multiReduction .add [1] ⟨1, ![a]⟩
            (exp (subf s (broadcastTo ⟨2, ![a, b]⟩ (shapeCast ⟨2, ![a, 1]⟩
              (multiReduction .maximumf [1] ⟨1, ![a]⟩ s 0xFF800000#32 hr hφ hmax) hc) hb)))
            0x00000000#32 hr hφ hadd) hc)) hb)
        (ix2 r j)
      = Cert.Gcn.logSoftmaxOf (fun j' => s (ix2 r j')) j := by
  -- the row's entries less the row's maximum, entry by entry
  have hd : ∀ j' : Fin b,
      subf s (broadcastTo ⟨2, ![a, b]⟩ (shapeCast ⟨2, ![a, 1]⟩
          (multiReduction .maximumf [1] ⟨1, ![a]⟩ s 0xFF800000#32 hr hφ hmax) hc) hb) (ix2 r j')
        = s (ix2 r j') - maxOf (fun j'' => s (ix2 r j'')) := by
    intro j'
    show s (ix2 r j') - broadcastTo ⟨2, ![a, b]⟩ (shapeCast ⟨2, ![a, 1]⟩
          (multiReduction .maximumf [1] ⟨1, ![a]⟩ s 0xFF800000#32 hr hφ hmax) hc) hb (ix2 r j') = _
    rw [keepdims_apply _ hc hb r j', rowMax_apply s _ hr hφ hmax r]
    rfl
  -- the weights, entry by entry
  have hw : ∀ j' : Fin b,
      exp (subf s (broadcastTo ⟨2, ![a, b]⟩ (shapeCast ⟨2, ![a, 1]⟩
          (multiReduction .maximumf [1] ⟨1, ![a]⟩ s 0xFF800000#32 hr hφ hmax) hc) hb)) (ix2 r j')
        = weightOf (fun j'' => s (ix2 r j'')) j' := by
    intro j'
    show Ideal.exp (subf s (broadcastTo ⟨2, ![a, b]⟩ (shapeCast ⟨2, ![a, 1]⟩
          (multiReduction .maximumf [1] ⟨1, ![a]⟩ s 0xFF800000#32 hr hφ hmax) hc) hb) (ix2 r j')) = _
    rw [hd j']
    rfl
  show _ - _ = _
  rw [hd j, broadcastTo_a1_ab_apply _ hb r j]
  show _ - Ideal.log (shapeCast ⟨2, ![a, 1]⟩ _ hc (ix2 r (0 : Fin 1))) = _
  rw [shapeCast_a_a1_apply _ hc r 0, rowSum_apply _ _ hr hφ hadd r]
  unfold Cert.Gcn.logSoftmaxOf
  exact congrArg (fun z => (s (ix2 r j) - maxOf (fun j'' => s (ix2 r j''))) - Ideal.log z)
    (Finset.sum_congr rfl fun j' _ => hw j')

/-- The body's result at row `p`, lane `q` of a block: the log-softmax, at lane `q`, of row `p` of the block with
    the bias row added lane by lane. -/
theorem ls5_pay_apply (x0 : Vec Ideal S10000x40 .f32) (x1 : Vec Ideal S1x40 .f32) (p : Fin 10000) (q : Fin 40) :
    k5_pay1 x0 x1 (ix2 p q) = Cert.Gcn.logSoftmaxOf (fun k => x0 (ix2 p k) + x1 (ix2 (0 : Fin 1) k)) q := by
  unfold k5_pay1
  refine (ls5_logsoftmax_rows_apply
    (addf (shapeCast S10000x40 x0 shapeCasts_S10000x40_S10000x40)
      (broadcastTo S10000x40 (shapeCast S1x40 x1 shapeCasts_S1x40_S1x40) broadcasts_S1x40_S10000x40))
    reduces_S10000x40_S10000 shapeCasts_S10000_S10000x1 broadcasts_S10000x1_S10000x40 (.inl rfl) rfl rfl p q).trans ?_
  refine congrArg (fun f => Cert.Gcn.logSoftmaxOf f q) (funext fun k => ?_)
  show shapeCast S10000x40 x0 shapeCasts_S10000x40_S10000x40 (ix2 p k)
      + broadcastTo S10000x40 (shapeCast S1x40 x1 shapeCasts_S1x40_S1x40) broadcasts_S1x40_S10000x40 (ix2 p k) = _
  rw [shapeCast_self, shapeCast_self, broadcastTo_1b_ab_apply]

/-! ## From the blocks to the array -/

theorem ls5_zero_off : (![0, 0] : Fin 2 → Nat) = fun _ => 0 := funext fun a => by fin_cases a <;> rfl

/-- The printed index maps over the grid: the block of rows and the result's block sit at the point's own number
    along the rows and at 0 along the lanes; the bias row's block is always the one at (0, 0). -/
theorem ls5_idx_facts : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- Row `p`, lane `k` of the block of rows at point `t` is row `t · 10000 + p`, lane `k` of the array. -/
theorem ls5_rows_blk_apply (c : Dev nD) (t : Fin cfg5.N) (p : Fin 10000) (k : Fin 40) (r : Fin 100000)
    (hr : r.val = t.val * 10000 + p.val) :
    iblk5 V c 0 t (ix2 p k) = V c main_v75 (ix2 r k) := by
  obtain ⟨e0, e1, -, -, -, -⟩ := ls5_idx_facts t
  show V c main_v75 (((cfg5.win 0).blk t).view.emb (ix2 p k)) = _
  refine congrArg (V c main_v75) (funext fun a => Fin.ext ?_)
  match a with
  | ⟨0, _⟩ => show win5_0.index t (0 : Fin 2) * 10000 + 1 * p.val = r.val; omega
  | ⟨1, _⟩ => show win5_0.index t (1 : Fin 2) * 40 + 1 * k.val = k.val; omega

/-- Lane `k` of the bias block at any point is lane `k` of the bias row. -/
theorem ls5_bias_blk_apply (c : Dev nD) (t : Fin cfg5.N) (k : Fin 40) :
    iblk5 V c 1 t (ix2 (0 : Fin 1) k) = V c main_v76 (ix2 (0 : Fin 1) k) := by
  obtain ⟨-, -, e2, e3, -, -⟩ := ls5_idx_facts t
  show V c main_v76 (((cfg5.win 1).blk t).view.emb (ix2 (0 : Fin 1) k)) = _
  refine congrArg (V c main_v76) (funext fun a => Fin.ext ?_)
  match a with
  | ⟨0, _⟩ => show win5_1.index t (0 : Fin 2) * 1 + 1 * 0 = 0; omega
  | ⟨1, _⟩ => show win5_1.index t (1 : Fin 2) * 40 + 1 * k.val = k.val; omega

/-- What point `t` writes back is block `t` of the bias-plus-log-softmax of the whole arrays: a row's statistics
    depend on that row only, and row `p` of the block is row `t · 10000 + p` of the array. -/
theorem ls5_flushed_eq (c : Dev nD) (t : Fin cfg5.N) :
    (dat5 (F := Ideal) V c).flushed 2 t = ((cfg5.win 2).blk t).view.read (Elt Ideal)
      (Cert.Gcn.biasLogSoftmax (a := 100000) (b := 40) (V c main_v75) (fun k => V c main_v76 (ix2 (0 : Fin 1) k))) := by
  show (cfg5.win 2).cut (grid5.coords t) ((dat5 V c).after 2 t) = _
  rw [after5_2]
  unfold out5_2
  rw [View.canon_unit_zero ls5_zero_off]
  simp only [View.ld_unit_zero (S := S10000x40) ls5_zero_off, View.ld_unit_zero (S := S1x40) ls5_zero_off]
  obtain ⟨-, -, -, -, e4, e5⟩ := ls5_idx_facts t
  have hN : grid5.N = 10 := N_5
  have ht : t.val < 10 := hN ▸ t.isLt
  funext j
  obtain ⟨p, q, rfl⟩ : ∃ (p : Fin 10000) (q : Fin 40), j = ix2 p q := ⟨j 0, j 1, eq_ix2 j⟩
  have hp : p.val < 10000 := p.isLt
  show k5_pay1 (iblk5 V c 0 t) (iblk5 V c 1 t) (ix2 p q)
    = Cert.Gcn.biasLogSoftmax (a := 100000) (b := 40) (V c main_v75) (fun k => V c main_v76 (ix2 (0 : Fin 1) k))
        (((cfg5.win 2).blk t).view.emb (ix2 p q))
  have hemb : ((cfg5.win 2).blk t).view.emb (ix2 p q)
      = ix2 (⟨t.val * 10000 + p.val, by omega⟩ : Fin 100000) q := by
    funext a; apply Fin.ext
    match a with
    | ⟨0, _⟩ => show win5_2.index t (0 : Fin 2) * 10000 + 1 * p.val = t.val * 10000 + p.val; omega
    | ⟨1, _⟩ => show win5_2.index t (1 : Fin 2) * 40 + 1 * q.val = q.val; omega
  rw [hemb, Cert.Gcn.biasLogSoftmax_apply]
  refine (ls5_pay_apply _ _ p q).trans ?_
  refine congrArg (fun f => Cert.Gcn.logSoftmaxOf f q) (funext fun k => ?_)
  exact congrArg₂ (fun x y : EReal => x + y)
    (ls5_rows_blk_apply V c t p k ⟨t.val * 10000 + p.val, by omega⟩ rfl) (ls5_bias_blk_apply V c t k)

/-- An index of the array is in point `t`'s block iff each coordinate is in the block's range on its axis. -/
theorem ls5_mem_blk (t : Fin cfg5.N) (i : S100000x40.Idx) :
    i ∈ ((cfg5.win 2).blk t).view.set ↔ ∀ a : Fin 2, win5_2.index t a * S10000x40.size a ≤ (i a).val
      ∧ (i a).val < win5_2.index t a * S10000x40.size a + S10000x40.size a := by
  show i ∈ ((View.whole main_v77).slice (win5_2.rect t)).set ↔ _
  rw [View.set_slice_whole, Rect.mem_set_unit]
  exact Iff.rfl

/-- Every index of the array is in some point's block: row `r` is in the block of point `r / 10000`. -/
theorem ls5_cover (i : S100000x40.Idx) :
    ∃ t : Fin cfg5.N, (cfg5.win 2).flush t = true ∧ i ∈ ((cfg5.win 2).blk t).view.set := by
  have hi0 : (i 0).val < 100000 := (i 0).isLt
  have hi1 : (i 1).val < 40 := (i 1).isLt
  have hN : grid5.N = 10 := N_5
  let t : Fin cfg5.N := ⟨(i 0).val / 10000, by show (i 0).val / 10000 < grid5.N; omega⟩
  obtain ⟨-, -, -, -, e4, e5⟩ := ls5_idx_facts t
  have e4' : win5_2.index t (0 : Fin 2) = (i 0).val / 10000 := e4
  refine ⟨t, flush5_2 t, ?_⟩
  rw [ls5_mem_blk]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 40 ≤ (i 1).val ∧ (i 1).val < win5_2.index t (1 : Fin 2) * 40 + 40; omega

/-- The result array after the launch: the bias row added to every row of the input, then the row-wise log-softmax. -/
theorem arr5 (c : Dev nD) : (dat5 (F := Ideal) V c).arrAt 2 cfg5.N
    = Cert.Gcn.biasLogSoftmax (a := 100000) (b := 40) (V c main_v75) (fun k => V c main_v76 (ix2 (0 : Fin 1) k)) :=
  (dat5 V c).arrAt_eq_of_cover 2 _ (fun t _ => ls5_flushed_eq V c t) ls5_cover

end Cert.KernelIdeal.Val

end
-- ==== Proof.KWalk.lean ====
/-
  What the idealized kernel's result array holds, as one function of the argument arrays.

  The buffers' contents are followed through the program: `Gen.W3` … `Gen.W12` are what they hold when each stretch of
  host operations and each launch has finished. The three edge arrays built before the first launch (sources, targets,
  normalisation) and the argument arrays are written by nothing afterwards, so they are the same at every later
  boundary. Each launch leaves its output array at the whole-array function proved for it (a matrix product, a bias
  plus swish, a bias plus log-softmax) of what its input arrays held when it was entered, and each stretch of host
  operations leaves the gather-scale-scatter of the last product and the next bias row. Reading the boundaries in
  order gives the nine stages of the network

      p1 = x·W1,  a1 = agg p1,  h1 = swish (a1 + b1),  p2 = h1·W2,  a2 = agg p2,  h2 = swish (a2 + b2),
      p3 = h2·W3,  a3 = agg p3,  out = log_softmax (a3 + b3)

  and the result array ends at `out`.
-/
import proofs.«106903_j8074538516509_1_alg».proof.Proof.KRun
import proofs.«106903_j8074538516509_1_alg».proof.Proof.KHost
import proofs.«106903_j8074538516509_1_alg».proof.Proof.Spec
import proofs.«106903_j8074538516509_1_alg».proof.Proof.Mm0
import proofs.«106903_j8074538516509_1_alg».proof.Proof.Mm2
import proofs.«106903_j8074538516509_1_alg».proof.Proof.Mm4
import proofs.«106903_j8074538516509_1_alg».proof.Proof.Sw1
import proofs.«106903_j8074538516509_1_alg».proof.Proof.Sw3
import proofs.«106903_j8074538516509_1_alg».proof.Proof.Ls5
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Cert.Lib.MatProd Cert.Gcn

/-! ## The nine stages, as functions of the argument arrays -/

section StageFunctions

variable (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal)) (x6 : (⟨S64x40, .f32⟩ : BufTy).Contents (Elt Ideal)) (x7 : (⟨S40, .f32⟩ : BufTy).Contents (Elt Ideal))

def p1 : (⟨S100000x64, .f32⟩ : BufTy).Contents (Elt Ideal) := prod (M := 100000) (K := 128) (N := 64) x0 x2
def a1 : (⟨S100000x64, .f32⟩ : BufTy).Contents (Elt Ideal) := agg64 (F := Ideal) (srcOf x1) (dstOf x1) (normOf (srcOf x1) (dstOf x1)) (p1 x0 x2)
def h1 : (⟨S100000x64, .f32⟩ : BufTy).Contents (Elt Ideal) := biasSwish (a := 100000) (b := 64) (a1 x0 x1 x2) (fun k => x3 (ix1 k))
def p2 : (⟨S100000x64, .f32⟩ : BufTy).Contents (Elt Ideal) := prod (M := 100000) (K := 64) (N := 64) (h1 x0 x1 x2 x3) x4
def a2 : (⟨S100000x64, .f32⟩ : BufTy).Contents (Elt Ideal) := agg64 (F := Ideal) (srcOf x1) (dstOf x1) (normOf (srcOf x1) (dstOf x1)) (p2 x0 x1 x2 x3 x4)
def h2 : (⟨S100000x64, .f32⟩ : BufTy).Contents (Elt Ideal) := biasSwish (a := 100000) (b := 64) (a2 x0 x1 x2 x3 x4) (fun k => x5 (ix1 k))
def p3 : (⟨S100000x40, .f32⟩ : BufTy).Contents (Elt Ideal) := prod (M := 100000) (K := 64) (N := 40) (h2 x0 x1 x2 x3 x4 x5) x6
def a3 : (⟨S100000x40, .f32⟩ : BufTy).Contents (Elt Ideal) := agg40 (F := Ideal) (srcOf x1) (dstOf x1) (normOf (srcOf x1) (dstOf x1)) (p3 x0 x1 x2 x3 x4 x5 x6)
def out : (⟨S100000x40, .f32⟩ : BufTy).Contents (Elt Ideal) := biasLogSoftmax (a := 100000) (b := 40) (a3 x0 x1 x2 x3 x4 x5 x6) (fun k => x7 (ix1 k))

end StageFunctions

/-- A bias vector laid out as a one-row matrix reads, at `(0, k)`, the vector at `k`. -/
theorem row_of_vec {b : ℕ} (x : (⟨1, ![b]⟩ : Shape).Idx → EReal) (h : (⟨1, ![b]⟩ : Shape).ShapeCasts ⟨2, ![1, b]⟩) (k : Fin b) :
    shapeCast ⟨2, ![1, b]⟩ x h (ix2 (0 : Fin 1) k) = x (ix1 k) :=
  shapeCast_apply x h _ _ (by
    rw [Shape.rowMajor_val_two, Shape.rowMajor_val_one]
    show k.val = 0 * b + k.val
    omega)

variable (m : (ℓ : Loc nD τ sig) → Buf (Elt Ideal) ℓ) (ρ : Dev nD → PrngReg) (c : Dev nD)

/-! ## The edge arrays and the arguments, at every boundary where they are read -/

theorem W3_src : W3 m ρ c (Proc.devRef .tc main_v3) = srcOf (F := Ideal) (m ((c : Thread nD τ).loc main_arg1)) := pre_src (W0 m ρ c)
theorem W3_dst : W3 m ρ c (Proc.devRef .tc main_v6) = dstOf (F := Ideal) (m ((c : Thread nD τ).loc main_arg1)) := pre_dst (W0 m ρ c)
theorem W3_norm : W3 m ρ c (Proc.devRef .tc main_v32) = normOf (F := Ideal) (srcOf (m ((c : Thread nD τ).loc main_arg1))) (dstOf (m ((c : Thread nD τ).loc main_arg1))) := pre_norm (W0 m ρ c)
theorem W3_arg0 : W3 m ρ c (Proc.devRef .tc main_arg0) = (m ((c : Thread nD τ).loc main_arg0)) := pre_keep_arg0 (W0 m ρ c)
theorem W3_arg2 : W3 m ρ c (Proc.devRef .tc main_arg2) = (m ((c : Thread nD τ).loc main_arg2)) := pre_keep_arg2 (W0 m ρ c)
theorem W3_arg3 : W3 m ρ c (Proc.devRef .tc main_arg3) = (m ((c : Thread nD τ).loc main_arg3)) := pre_keep_arg3 (W0 m ρ c)
theorem W3_arg4 : W3 m ρ c (Proc.devRef .tc main_arg4) = (m ((c : Thread nD τ).loc main_arg4)) := pre_keep_arg4 (W0 m ρ c)
theorem W3_arg5 : W3 m ρ c (Proc.devRef .tc main_arg5) = (m ((c : Thread nD τ).loc main_arg5)) := pre_keep_arg5 (W0 m ρ c)
theorem W3_arg6 : W3 m ρ c (Proc.devRef .tc main_arg6) = (m ((c : Thread nD τ).loc main_arg6)) := pre_keep_arg6 (W0 m ρ c)
theorem W3_arg7 : W3 m ρ c (Proc.devRef .tc main_arg7) = (m ((c : Thread nD τ).loc main_arg7)) := pre_keep_arg7 (W0 m ρ c)

/-- After the first launch (it writes only its output array). -/
theorem W4_src : W4 m ρ c (Proc.devRef .tc main_v3) = srcOf (F := Ideal) (m ((c : Thread nD τ).loc main_arg1)) := (W4_of_ne m ρ c main_v3 (by decide)).trans (W3_src m ρ c)
theorem W4_dst : W4 m ρ c (Proc.devRef .tc main_v6) = dstOf (F := Ideal) (m ((c : Thread nD τ).loc main_arg1)) := (W4_of_ne m ρ c main_v6 (by decide)).trans (W3_dst m ρ c)
theorem W4_norm : W4 m ρ c (Proc.devRef .tc main_v32) = normOf (F := Ideal) (srcOf (m ((c : Thread nD τ).loc main_arg1))) (dstOf (m ((c : Thread nD τ).loc main_arg1))) := (W4_of_ne m ρ c main_v32 (by decide)).trans (W3_norm m ρ c)
theorem W4_arg3 : W4 m ρ c (Proc.devRef .tc main_arg3) = (m ((c : Thread nD τ).loc main_arg3)) := (W4_of_ne m ρ c main_arg3 (by decide)).trans (W3_arg3 m ρ c)
theorem W4_arg4 : W4 m ρ c (Proc.devRef .tc main_arg4) = (m ((c : Thread nD τ).loc main_arg4)) := (W4_of_ne m ρ c main_arg4 (by decide)).trans (W3_arg4 m ρ c)
theorem W4_arg5 : W4 m ρ c (Proc.devRef .tc main_arg5) = (m ((c : Thread nD τ).loc main_arg5)) := (W4_of_ne m ρ c main_arg5 (by decide)).trans (W3_arg5 m ρ c)
theorem W4_arg6 : W4 m ρ c (Proc.devRef .tc main_arg6) = (m ((c : Thread nD τ).loc main_arg6)) := (W4_of_ne m ρ c main_arg6 (by decide)).trans (W3_arg6 m ρ c)
theorem W4_arg7 : W4 m ρ c (Proc.devRef .tc main_arg7) = (m ((c : Thread nD τ).loc main_arg7)) := (W4_of_ne m ρ c main_arg7 (by decide)).trans (W3_arg7 m ρ c)

/-- After the second and third launches and the stretch before them. -/
theorem W7_src : W7 m ρ c (Proc.devRef .tc main_v3) = srcOf (F := Ideal) (m ((c : Thread nD τ).loc main_arg1)) :=
  (W7_of_ne m ρ c main_v3 (by decide)).trans ((W6_of_ne m ρ c main_v3 (by decide)).trans ((hostOps1_keep_v3 (W4 m ρ c)).trans (W4_src m ρ c)))
theorem W7_dst : W7 m ρ c (Proc.devRef .tc main_v6) = dstOf (F := Ideal) (m ((c : Thread nD τ).loc main_arg1)) :=
  (W7_of_ne m ρ c main_v6 (by decide)).trans ((W6_of_ne m ρ c main_v6 (by decide)).trans ((hostOps1_keep_v6 (W4 m ρ c)).trans (W4_dst m ρ c)))
theorem W7_norm : W7 m ρ c (Proc.devRef .tc main_v32) = normOf (F := Ideal) (srcOf (m ((c : Thread nD τ).loc main_arg1))) (dstOf (m ((c : Thread nD τ).loc main_arg1))) :=
  (W7_of_ne m ρ c main_v32 (by decide)).trans ((W6_of_ne m ρ c main_v32 (by decide)).trans ((hostOps1_keep_v32 (W4 m ρ c)).trans (W4_norm m ρ c)))
theorem W6_arg4 : W6 m ρ c (Proc.devRef .tc main_arg4) = (m ((c : Thread nD τ).loc main_arg4)) :=
  (W6_of_ne m ρ c main_arg4 (by decide)).trans ((hostOps1_keep_arg4 (W4 m ρ c)).trans (W4_arg4 m ρ c))
theorem W7_arg5 : W7 m ρ c (Proc.devRef .tc main_arg5) = (m ((c : Thread nD τ).loc main_arg5)) :=
  (W7_of_ne m ρ c main_arg5 (by decide)).trans ((W6_of_ne m ρ c main_arg5 (by decide)).trans ((hostOps1_keep_arg5 (W4 m ρ c)).trans (W4_arg5 m ρ c)))
theorem W7_arg6 : W7 m ρ c (Proc.devRef .tc main_arg6) = (m ((c : Thread nD τ).loc main_arg6)) :=
  (W7_of_ne m ρ c main_arg6 (by decide)).trans ((W6_of_ne m ρ c main_arg6 (by decide)).trans ((hostOps1_keep_arg6 (W4 m ρ c)).trans (W4_arg6 m ρ c)))
theorem W7_arg7 : W7 m ρ c (Proc.devRef .tc main_arg7) = (m ((c : Thread nD τ).loc main_arg7)) :=
  (W7_of_ne m ρ c main_arg7 (by decide)).trans ((W6_of_ne m ρ c main_arg7 (by decide)).trans ((hostOps1_keep_arg7 (W4 m ρ c)).trans (W4_arg7 m ρ c)))

/-- After the fourth and fifth launches and the stretch before them. -/
theorem W10_src : W10 m ρ c (Proc.devRef .tc main_v3) = srcOf (F := Ideal) (m ((c : Thread nD τ).loc main_arg1)) :=
  (W10_of_ne m ρ c main_v3 (by decide)).trans ((W9_of_ne m ρ c main_v3 (by decide)).trans ((hostOps3_keep_v3 (W7 m ρ c)).trans (W7_src m ρ c)))
theorem W10_dst : W10 m ρ c (Proc.devRef .tc main_v6) = dstOf (F := Ideal) (m ((c : Thread nD τ).loc main_arg1)) :=
  (W10_of_ne m ρ c main_v6 (by decide)).trans ((W9_of_ne m ρ c main_v6 (by decide)).trans ((hostOps3_keep_v6 (W7 m ρ c)).trans (W7_dst m ρ c)))
theorem W10_norm : W10 m ρ c (Proc.devRef .tc main_v32) = normOf (F := Ideal) (srcOf (m ((c : Thread nD τ).loc main_arg1))) (dstOf (m ((c : Thread nD τ).loc main_arg1))) :=
  (W10_of_ne m ρ c main_v32 (by decide)).trans ((W9_of_ne m ρ c main_v32 (by decide)).trans ((hostOps3_keep_v32 (W7 m ρ c)).trans (W7_norm m ρ c)))
theorem W9_arg6 : W9 m ρ c (Proc.devRef .tc main_arg6) = (m ((c : Thread nD τ).loc main_arg6)) :=
  (W9_of_ne m ρ c main_arg6 (by decide)).trans ((hostOps3_keep_arg6 (W7 m ρ c)).trans (W7_arg6 m ρ c))
theorem W10_arg7 : W10 m ρ c (Proc.devRef .tc main_arg7) = (m ((c : Thread nD τ).loc main_arg7)) :=
  (W10_of_ne m ρ c main_arg7 (by decide)).trans ((W9_of_ne m ρ c main_arg7 (by decide)).trans ((hostOps3_keep_arg7 (W7 m ρ c)).trans (W7_arg7 m ρ c)))

/-! ## The stage buffers, boundary by boundary -/

/-- The first launch leaves the product of the features with the first weight matrix. -/
theorem W4_p1 : W4 m ρ c (Proc.devRef .tc main_v33) = p1 (m ((c : Thread nD τ).loc main_arg0)) (m ((c : Thread nD τ).loc main_arg2)) := by
  refine (W4_arr m ρ c 2).trans ((arr0 (V3 m ρ) c).trans ?_)
  unfold p1
  rw [show V3 m ρ c main_arg0 = (m ((c : Thread nD τ).loc main_arg0)) from W3_arg0 m ρ c, show V3 m ρ c main_arg2 = (m ((c : Thread nD τ).loc main_arg2)) from W3_arg2 m ρ c]

/-- The stretch after it gathers, scales and scatter-adds that product. -/
theorem W5_a1 : W5 m ρ c (Proc.devRef .tc main_v45) = a1 (m ((c : Thread nD τ).loc main_arg0)) (m ((c : Thread nD τ).loc main_arg1)) (m ((c : Thread nD τ).loc main_arg2)) := by
  refine (hostOps1_agg (W4 m ρ c)).trans ?_
  unfold a1
  rw [W4_src m ρ c, W4_dst m ρ c, W4_norm m ρ c, W4_p1 m ρ c]

theorem W5_b1 (k : Fin 64) : W5 m ρ c (Proc.devRef .tc main_v46) (ix2 (0 : Fin 1) k) = (m ((c : Thread nD τ).loc main_arg3)) (ix1 k) := by
  refine (congrFun (hostOps1_bias (W4 m ρ c)) (ix2 (0 : Fin 1) k)).trans ?_
  rw [W4_arg3 m ρ c]
  exact row_of_vec _ _ k

/-- The second launch adds the bias and applies swish. -/
theorem W6_h1 : W6 m ρ c (Proc.devRef .tc main_v47) = h1 (m ((c : Thread nD τ).loc main_arg0)) (m ((c : Thread nD τ).loc main_arg1)) (m ((c : Thread nD τ).loc main_arg2)) (m ((c : Thread nD τ).loc main_arg3)) := by
  refine (W6_arr m ρ c 2).trans ((arr1 (V5 m ρ) c).trans ?_)
  unfold h1
  rw [show V5 m ρ c main_v45 = a1 (m ((c : Thread nD τ).loc main_arg0)) (m ((c : Thread nD τ).loc main_arg1)) (m ((c : Thread nD τ).loc main_arg2)) from W5_a1 m ρ c]
  exact congrArg _ (funext fun k => W5_b1 m ρ c k)

/-- The third launch multiplies by the second weight matrix. -/
theorem W7_p2 : W7 m ρ c (Proc.devRef .tc main_v48) = p2 (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((arr2 (V6 m ρ) c).trans ?_)
  unfold p2
  rw [show V6 m ρ c main_v47 = h1 (m ((c : Thread nD τ).loc main_arg0)) (m ((c : Thread nD τ).loc main_arg1)) (m ((c : Thread nD τ).loc main_arg2)) (m ((c : Thread nD τ).loc main_arg3)) from W6_h1 m ρ c, show V6 m ρ c main_arg4 = (m ((c : Thread nD τ).loc main_arg4)) from W6_arg4 m ρ c]

theorem W8_a2 : W8 m ρ c (Proc.devRef .tc main_v60) = a2 (m ((c : Thread nD τ).loc main_arg0)) (m ((c : Thread nD τ).loc main_arg1)) (m ((c : Thread nD τ).loc main_arg2)) (m ((c : Thread nD τ).loc main_arg3)) (m ((c : Thread nD τ).loc main_arg4)) := by
  refine (hostOps3_agg (W7 m ρ c)).trans ?_
  unfold a2
  rw [W7_src m ρ c, W7_dst m ρ c, W7_norm m ρ c, W7_p2 m ρ c]

theorem W8_b2 (k : Fin 64) : W8 m ρ c (Proc.devRef .tc main_v61) (ix2 (0 : Fin 1) k) = (m ((c : Thread nD τ).loc main_arg5)) (ix1 k) := by
  refine (congrFun (hostOps3_bias (W7 m ρ c)) (ix2 (0 : Fin 1) k)).trans ?_
  rw [W7_arg5 m ρ c]
  exact row_of_vec _ _ k

theorem W9_h2 : W9 m ρ c (Proc.devRef .tc main_v62) = h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((arr3 (V8 m ρ) c).trans ?_)
  unfold h2
  rw [show V8 m ρ c main_v60 = a2 (m ((c : Thread nD τ).loc main_arg0)) (m ((c : Thread nD τ).loc main_arg1)) (m ((c : Thread nD τ).loc main_arg2)) (m ((c : Thread nD τ).loc main_arg3)) (m ((c : Thread nD τ).loc main_arg4)) from W8_a2 m ρ c]
  exact congrArg _ (funext fun k => W8_b2 m ρ c k)

theorem W10_p3 : W10 m ρ c (Proc.devRef .tc main_v63) = p3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W10_arr m ρ c 2).trans ((arr4 (V9 m ρ) c).trans ?_)
  unfold p3
  rw [show V9 m ρ c main_v62 = h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) from W9_h2 m ρ c, show V9 m ρ c main_arg6 = (m ((c : Thread nD τ).loc main_arg6)) from W9_arg6 m ρ c]

theorem W11_a3 : W11 m ρ c (Proc.devRef .tc main_v75) = a3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (hostOps5_agg (W10 m ρ c)).trans ?_
  unfold a3
  rw [W10_src m ρ c, W10_dst m ρ c, W10_norm m ρ c, W10_p3 m ρ c]

theorem W11_b3 (k : Fin 40) : W11 m ρ c (Proc.devRef .tc main_v76) (ix2 (0 : Fin 1) k) = (m ((c : Thread nD τ).loc main_arg7)) (ix1 k) := by
  refine (congrFun (hostOps5_bias (W10 m ρ c)) (ix2 (0 : Fin 1) k)).trans ?_
  rw [W10_arg7 m ρ c]
  exact row_of_vec _ _ k

/-- The last launch adds the bias and applies the row-wise log-softmax: the result array. -/
theorem W12_out : W12 m ρ c (Proc.devRef .tc main_v77) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W12_arr m ρ c 2).trans ((arr5 (V11 m ρ) c).trans ?_)
  unfold out
  rw [show V11 m ρ c main_v75 = a3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) from W11_a3 m ρ c]
  exact congrArg _ (funext fun k => W11_b3 m ρ c k)

/-- The idealized kernel's run: the result array ends at `out` of the argument arrays, the arguments as launched. -/
theorem run : θ_run defs (onTc (τ := τ) (main (F := Ideal))) ⟨m, fun _ => 0, ρ⟩ (fun r => ∀ c : Dev nD,
      r.2.mem ((c.tc : Thread nD τ).loc main_v77) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W12_out m ρ c), (h c).2⟩) (run_result (F := Ideal) m ρ)

end Cert.KernelIdeal.Val

end
-- ==== Proof.RefLayers.lean ====
/-
  The reference program's stages are the specification's whole-array functions.

  The reference is one straight line of host operations. Three of its stages are matrix products, two add a bias
  row and apply `x * logistic x`, and the last adds a bias row and applies a row-wise log-softmax. Each of these
  stages is shown here to be, as a function of the whole array, the corresponding function of the specification:

  * a `dot_general` over a one-axis contraction record is rows times columns (`Cert.Lib.MatProd.prod`);
  * the printed chain add, negate, exponential, one plus, one over, multiply is `v * (1 / (1 + exp (-v)))` at each
    entry, and `1 / (1 + exp (-v))` is the logistic function by definition;
  * the printed log-softmax chain (row maximum from `-∞`, subtract, exponential, row sum, logarithm, subtract)
    is `(v k - M) - log (∑ k', exp (v k' - M))` at each entry of each row.

  Every printed operation is read at the index. The only facts about the extended reals used are that the float
  word of `1.0` is `1`, that `0 + s = s`, and that the maximum of `-∞` with a maximum folded from `-∞` is that
  maximum.
-/
import proofs.«106903_j8074538516509_1_alg».proof.Proof.ReadP
import proofs.«106903_j8074538516509_1_alg».proof.Proof.Spec
import Idealize.ShloMosaic.Lib.ValueIdx
import Idealize.ShloMosaic.Lib.ValueLayout
import Idealize.ShloMosaic.PureOps.Ideal.Laws

noncomputable section

namespace Cert.ReferenceIdeal.Layers

open Cert.ReferenceIdeal Cert.ReferenceIdeal.Read Idealize.ShloMosaic Idealize.ShloMosaic.ValueIdx

/-! ## The three matrix products -/

/-- The first layer's product: the node features times the first weight matrix. -/
theorem dense1 (x0 : (⟨S100000x128, .f32⟩ : BufTy).Contents (Elt Ideal)) (x2 : (⟨S128x64, .f32⟩ : BufTy).Contents (Elt Ideal)) :
    val_main_v33 (F := Ideal) x0 x2 = Cert.Lib.MatProd.prod (M := 100000) (K := 128) (N := 64) x0 x2 := by
  unfold val_main_v33
  exact Cert.Lib.MatProd.dotGeneral_eq_prod _ rfl rfl lhs_main_v33_0 lhs_main_v33_1 rhs_main_v33_0 rhs_main_v33_1 none x0 x2

/-- The second layer's product: the first layer's output times the second weight matrix. -/
theorem dense2 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) :
    val_main_v56 (F := Ideal) x0 x1 x2 x3 x4
      = Cert.Lib.MatProd.prod (M := 100000) (K := 64) (N := 64) (val_main_v55 (F := Ideal) x0 x1 x2 x3) x4 := by
  unfold val_main_v56
  exact Cert.Lib.MatProd.dotGeneral_eq_prod _ rfl rfl lhs_main_v56_0 lhs_main_v56_1 rhs_main_v56_0 rhs_main_v56_1 none _ x4

/-- The third layer's product: the second layer's output times the third weight matrix. -/
theorem dense3 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x40, .f32⟩ : BufTy).Contents (Elt Ideal)) :
    val_main_v79 (F := Ideal) x0 x1 x2 x3 x4 x5 x6
      = Cert.Lib.MatProd.prod (M := 100000) (K := 64) (N := 40) (val_main_v78 (F := Ideal) x0 x1 x2 x3 x4 x5) x6 := by
  unfold val_main_v79
  exact Cert.Lib.MatProd.dotGeneral_eq_prod _ rfl rfl lhs_main_v79_0 lhs_main_v79_1 rhs_main_v79_0 rhs_main_v79_1 none _ x6

/-! ## The two bias-and-swish stages -/

/-- The float word `0x3F800000` is `1`. -/
theorem one_word : Ideal.ofBits .f32 0x3F800000#32 = 1 := IdealRules.sign_bit.ideal_onePat .f32

/-- The host's expansion of `v * logistic v`, with both ones printed as the float word of `1`. -/
theorem swish_chain (v : Ideal .f32) :
    FloatOps.mulf v (FloatOps.hostDivf (FloatOps.ofBits .f32 0x3F800000#32)
        (FloatOps.addf (FloatOps.ofBits .f32 0x3F800000#32) (FloatOps.hostUnary .exp (FloatOps.hostNegf v))))
      = Cert.Gcn.swish v := by
  show v * Ideal.div (Ideal.ofBits .f32 0x3F800000#32) (Ideal.ofBits .f32 0x3F800000#32 + Ideal.exp (-v))
    = v * Ideal.div 1 (1 + Ideal.exp (-v))
  rw [one_word]

/-- The bias vector spread over the rows, read through its two layout steps at `(r, k)`, is the vector at `k`. -/
theorem bias_idx1 (r : Fin 100000) (k : Fin 64) : idx_main_v46 (idx_main_v47 (ix2 r k)) = ix1 k :=
  funext fun a => Fin.ext (by match a with | ⟨0, _⟩ => rfl)

/-- Layer 1: the printed chain add bias, negate, exponential, one plus, one over, multiply is
    `v * logistic v` of the biased entry `v`. -/
theorem swish1 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) :
    val_main_v55 (F := Ideal) x0 x1 x2 x3
      = Cert.Gcn.biasSwish (a := 100000) (b := 64) (val_main_v45 (F := Ideal) x0 x1 x2) (fun k => x3 (ix1 k)) := by
  funext i
  obtain ⟨r, k, rfl⟩ : ∃ (r : Fin 100000) (k : Fin 64), i = ix2 r k := ⟨i 0, i 1, eq_ix2 i⟩
  rw [val_main_v55_apply, val_main_v54_apply, val_main_v53_apply, val_main_cst_11_apply, val_main_v52_apply,
    val_main_v51_apply, val_main_cst_10_apply, val_main_v50_apply, val_main_v49_apply, val_main_v48_apply,
    val_main_v47_apply, val_main_v46_apply, bias_idx1 r k, Cert.Gcn.biasSwish_apply]
  generalize val_main_v45 (F := Ideal) x0 x1 x2 = A
  exact swish_chain _

/-- The bias vector spread over the rows, read through its two layout steps at `(r, k)`, is the vector at `k`. -/
theorem bias_idx2 (r : Fin 100000) (k : Fin 64) : idx_main_v69 (idx_main_v70 (ix2 r k)) = ix1 k :=
  funext fun a => Fin.ext (by match a with | ⟨0, _⟩ => rfl)

/-- Layer 2: the printed chain add bias, negate, exponential, one plus, one over, multiply is
    `v * logistic v` of the biased entry `v`. -/
theorem swish2 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) :
    val_main_v78 (F := Ideal) x0 x1 x2 x3 x4 x5
      = Cert.Gcn.biasSwish (a := 100000) (b := 64) (val_main_v68 (F := Ideal) x0 x1 x2 x3 x4) (fun k => x5 (ix1 k)) := by
  funext i
  obtain ⟨r, k, rfl⟩ : ∃ (r : Fin 100000) (k : Fin 64), i = ix2 r k := ⟨i 0, i 1, eq_ix2 i⟩
  rw [val_main_v78_apply, val_main_v77_apply, val_main_v76_apply, val_main_cst_16_apply, val_main_v75_apply,
    val_main_v74_apply, val_main_cst_15_apply, val_main_v73_apply, val_main_v72_apply, val_main_v71_apply,
    val_main_v70_apply, val_main_v69_apply, bias_idx2 r k, Cert.Gcn.biasSwish_apply]
  generalize val_main_v68 (F := Ideal) x0 x1 x2 x3 x4 = A
  exact swish_chain _

/-! ## The bias-and-log-softmax stage

  Below, `v` is row `r` of the biased array (stage %94) as a function of the lane, and `M` its maximum folded
  from `-∞`. -/

/-- The bias vector spread over the rows, read through its two layout steps at `(r, k)`, is the vector at `k`. -/
theorem bias_idx3 (r : Fin 100000) (k : Fin 40) : idx_main_v92 (idx_main_v93 (ix2 r k)) = ix1 k :=
  funext fun a => Fin.ext (by match a with | ⟨0, _⟩ => rfl)

/-- The row maximum kept as a column and spread over the lanes is read, at `(r, k)`, at row `r`. -/
theorem col_idx_max (r : Fin 100000) (k : Fin 40) : idx_main_call1_v3 (idx_main_call1_v4 (ix2 r k)) = ix1 r :=
  funext fun a => Fin.ext (by match a with | ⟨0, _⟩ => rfl)

/-- The row sum kept as a column and spread over the lanes is read, at `(r, k)`, at row `r`. -/
theorem col_idx_sum (r : Fin 100000) (k : Fin 40) : idx_main_call1_v8 (idx_main_call1_v10 (ix2 r k)) = ix1 r :=
  funext fun a => Fin.ext (by match a with | ⟨0, _⟩ => rfl)

/-- The row sum's operand index at row `r` and lane `k` is `(r, k)`. -/
theorem sum_idx (r : Fin 100000) (k : Fin 40) : idx_main_call1_v7 (ix1 r) k = ix2 r k :=
  funext fun a => Fin.ext (by match a with | ⟨0, _⟩ => rfl | ⟨1, _⟩ => rfl)

/-- The host's reduce with a maximum body over the lanes, from `-∞`, at row `r`: the fold of `max` from `-∞` over
    that row's entries. -/
theorem hostRowMax (V : FVec Ideal S100000x40 .f32) (r : Fin 100000) :
    Host.reduce FloatOps.maximumf V (val_main_call1_cst (F := Ideal)) Cert.ReferenceIdeal.Gen.reducesTo_S100000x40_S100000_d1
        Cert.ReferenceIdeal.Gen.h_S_ (ix1 r)
      = Cert.Lib.RowSoftmax.maxOf (fun k : Fin 40 => V (ix2 r k)) := by
  have h : S100000x40.Reduces [1] S100000 := by decide
  refine (Host.reduce_eq_fold_single FloatOps.maximumf V _ Cert.ReferenceIdeal.Gen.reducesTo_S100000x40_S100000_d1 h
    Cert.ReferenceIdeal.Gen.h_S_ (ix1 r)).trans ?_
  show (Finset.univ : Finset (Fin 40)).fold max (Ideal.ofBits .f32 0xFF800000#32) (fun k => V (h.lift (ix1 r) k)) = _
  exact congrArg (fun f => (Finset.univ : Finset (Fin 40)).fold max (Ideal.ofBits .f32 0xFF800000#32) f)
    (funext fun k => congrArg V (Cert.Lib.RowSoftmax.lift_row h r k))

/-- Stage %94 at `(r, k)`: the entry plus the bias at lane `k`. -/
theorem biased_apply (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x40, .f32⟩ : BufTy).Contents (Elt Ideal)) (x7 : (⟨S40, .f32⟩ : BufTy).Contents (Elt Ideal)) (r : Fin 100000) (k : Fin 40) :
    val_main_v94 (F := Ideal) x0 x1 x2 x3 x4 x5 x6 x7 (ix2 r k)
      = Cert.Gcn.biasRow (val_main_v91 (F := Ideal) x0 x1 x2 x3 x4 x5 x6) (fun k => x7 (ix1 k)) r k := by
  rw [val_main_v94_apply, val_main_v93_apply, val_main_v92_apply, bias_idx3 r k]
  generalize val_main_v91 (F := Ideal) x0 x1 x2 x3 x4 x5 x6 = A
  rfl

/-- The row maximum as the program keeps it (the reduce from `-∞`, then the maximum with `-∞` once more), at row `r`:
    taking the maximum with `-∞` again changes nothing, the fold starts there. -/
theorem rowMax_apply (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x40, .f32⟩ : BufTy).Contents (Elt Ideal)) (x7 : (⟨S40, .f32⟩ : BufTy).Contents (Elt Ideal)) (r : Fin 100000) :
    val_main_call1_v2 (F := Ideal) x0 x1 x2 x3 x4 x5 x6 x7 (ix1 r) = Cert.Lib.RowSoftmax.maxOf (fun k : Fin 40 => val_main_v94 (F := Ideal) x0 x1 x2 x3 x4 x5 x6 x7 (ix2 r k)) := by
  rw [val_main_call1_v2_apply, val_main_call1_v1_apply, val_main_call1_cst_0_apply]
  unfold val_main_call1_v0
  generalize val_main_v94 (F := Ideal) x0 x1 x2 x3 x4 x5 x6 x7 = V
  rw [hostRowMax V r]
  exact Cert.Lib.RowSoftmax.max_negInf_maxOf _

/-- The shifted entry (the call's stage %5) at `(r, k)`: `v k - M`. -/
theorem shifted_apply (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x40, .f32⟩ : BufTy).Contents (Elt Ideal)) (x7 : (⟨S40, .f32⟩ : BufTy).Contents (Elt Ideal)) (r : Fin 100000) (k : Fin 40) :
    val_main_call1_v5 (F := Ideal) x0 x1 x2 x3 x4 x5 x6 x7 (ix2 r k) = val_main_v94 (F := Ideal) x0 x1 x2 x3 x4 x5 x6 x7 (ix2 r k) - Cert.Lib.RowSoftmax.maxOf (fun k : Fin 40 => val_main_v94 (F := Ideal) x0 x1 x2 x3 x4 x5 x6 x7 (ix2 r k)) := by
  rw [val_main_call1_v5_apply, val_main_call1_v4_apply, val_main_call1_v3_apply, col_idx_max r k, rowMax_apply,
    Ideal.subf_def]

/-- The weight (the call's stage %6) at `(r, k)`: `exp (v k - M)`. -/
theorem weight_apply (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x40, .f32⟩ : BufTy).Contents (Elt Ideal)) (x7 : (⟨S40, .f32⟩ : BufTy).Contents (Elt Ideal)) (r : Fin 100000) (k : Fin 40) :
    val_main_call1_v6 (F := Ideal) x0 x1 x2 x3 x4 x5 x6 x7 (ix2 r k) = Ideal.exp (val_main_v94 (F := Ideal) x0 x1 x2 x3 x4 x5 x6 x7 (ix2 r k) - Cert.Lib.RowSoftmax.maxOf (fun k : Fin 40 => val_main_v94 (F := Ideal) x0 x1 x2 x3 x4 x5 x6 x7 (ix2 r k))) := by
  rw [val_main_call1_v6_apply, shifted_apply, Ideal.hostUnary_exp_def]

/-- The row sum of the weights (the call's stage %7) at row `r`; the sum starts from the float word of `0`. -/
theorem rowSum_apply (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x40, .f32⟩ : BufTy).Contents (Elt Ideal)) (x7 : (⟨S40, .f32⟩ : BufTy).Contents (Elt Ideal)) (r : Fin 100000) :
    val_main_call1_v7 (F := Ideal) x0 x1 x2 x3 x4 x5 x6 x7 (ix1 r)
      = ∑ k' : Fin 40, Ideal.exp (val_main_v94 (F := Ideal) x0 x1 x2 x3 x4 x5 x6 x7 (ix2 r k') - Cert.Lib.RowSoftmax.maxOf (fun k : Fin 40 => val_main_v94 (F := Ideal) x0 x1 x2 x3 x4 x5 x6 x7 (ix2 r k))) := by
  rw [val_main_call1_v7_apply, val_main_call1_cst_1_apply, Ideal.ofBits_def, Ideal.ofBits_zero_f32, zero_add]
  exact Finset.sum_congr rfl fun k' _ => by rw [sum_idx r k', weight_apply]

/-- The logarithm of the row sum, kept as a column and spread over the lanes (the call's stage %10), at `(r, k)`. -/
theorem logSum_apply (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x40, .f32⟩ : BufTy).Contents (Elt Ideal)) (x7 : (⟨S40, .f32⟩ : BufTy).Contents (Elt Ideal)) (r : Fin 100000) (k : Fin 40) :
    val_main_call1_v10 (F := Ideal) x0 x1 x2 x3 x4 x5 x6 x7 (ix2 r k)
      = Ideal.log (∑ k' : Fin 40, Ideal.exp (val_main_v94 (F := Ideal) x0 x1 x2 x3 x4 x5 x6 x7 (ix2 r k') - Cert.Lib.RowSoftmax.maxOf (fun k : Fin 40 => val_main_v94 (F := Ideal) x0 x1 x2 x3 x4 x5 x6 x7 (ix2 r k)))) := by
  rw [val_main_call1_v10_apply, val_main_call1_v9_apply, val_main_call1_v8_apply, col_idx_sum r k, rowSum_apply,
    Ideal.hostUnary_log_def]

/-- Layer 3: the printed chain add bias, row maximum, subtract, exponential, row sum, logarithm, subtract is the
    log-softmax of the biased row. -/
theorem logsoftmax3 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x40, .f32⟩ : BufTy).Contents (Elt Ideal)) (x7 : (⟨S40, .f32⟩ : BufTy).Contents (Elt Ideal)) :
    val_main_v95 (F := Ideal) x0 x1 x2 x3 x4 x5 x6 x7
      = Cert.Gcn.biasLogSoftmax (a := 100000) (b := 40) (val_main_v91 (F := Ideal) x0 x1 x2 x3 x4 x5 x6) (fun k => x7 (ix1 k)) := by
  funext i
  obtain ⟨r, k, rfl⟩ : ∃ (r : Fin 100000) (k : Fin 40), i = ix2 r k := ⟨i 0, i 1, eq_ix2 i⟩
  rw [val_main_v95_apply, shifted_apply, logSum_apply, Ideal.subf_def, Cert.Gcn.biasLogSoftmax_apply]
  have hV : ∀ k : Fin 40, val_main_v94 (F := Ideal) x0 x1 x2 x3 x4 x5 x6 x7 (ix2 r k)
      = Cert.Gcn.biasRow (val_main_v91 (F := Ideal) x0 x1 x2 x3 x4 x5 x6) (fun k => x7 (ix1 k)) r k :=
    fun k => biased_apply x0 x1 x2 x3 x4 x5 x6 x7 r k
  generalize val_main_v94 (F := Ideal) x0 x1 x2 x3 x4 x5 x6 x7 = V at hV ⊢
  generalize Cert.Gcn.biasRow (val_main_v91 (F := Ideal) x0 x1 x2 x3 x4 x5 x6) (fun k => x7 (ix1 k)) r = v at hV ⊢
  have hrow : (fun k : Fin 40 => V (ix2 r k)) = v := funext hV
  rw [hrow, hV k]
  unfold Cert.Gcn.logSoftmaxOf Cert.Lib.RowSoftmax.weightOf
  exact congrArg (fun s => (v k - Cert.Lib.RowSoftmax.maxOf v) - Ideal.log s) (Finset.sum_congr rfl fun k' _ => by rw [hV k'])

end Cert.ReferenceIdeal.Layers

end
-- ==== Proof.Bridge.lean ====
/-
  The two programs compute one function.

  The idealized kernel's result is `out` of the argument arrays: nine stages, each a matrix product, a
  gather-scale-scatter along the edges, or a bias plus nonlinearity. The reference's result is its last stage
  function `val_main_v95`, a chain of 134 operations. Both programs print the SAME host text for the edge arrays (the
  edges' sources and targets with the self-loops appended, and the normalisation `dis[src] · dis[dst]`) and for the
  gather-scale-scatter of each layer, so those parts are equal as they stand, each program's records of dimension
  numbers being the same literal records: they are never opened. The remaining parts are the layer lemmas: the reference's
  `dot_general`, its `1 / (1 + exp (-v))` spelling of the logistic and its `log_softmax` are the specification's
  `prod`, `biasSwish` and `biasLogSoftmax`, as the kernel launches' output arrays are. Going down the reference's
  stages in order, each is the kernel's stage of the same name.
-/
import proofs.«106903_j8074538516509_1_alg».proof.Proof.KWalk
import proofs.«106903_j8074538516509_1_alg».proof.Proof.RefLayers

set_option maxRecDepth 16384

noncomputable section

namespace Cert.Proof.Bridge

open Idealize.ShloMosaic Idealize.ShloMosaic.ValueIdx
open Cert.KernelIdeal.Val (srcOf dstOf wrapIx normOf agg64 agg40 p1 a1 h1 p2 a2 h2 p3 a3 out)
open Cert.ReferenceIdeal.Read Cert.ReferenceIdeal.Layers

variable (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x64, .f32⟩ : BufTy).Contents (Elt Ideal)) (x3 : (⟨Cert.ReferenceIdeal.S64, .f32⟩ : BufTy).Contents (Elt Ideal))
  (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S64x40, .f32⟩ : BufTy).Contents (Elt Ideal)) (x7 : (⟨Cert.ReferenceIdeal.S40, .f32⟩ : BufTy).Contents (Elt Ideal))

/-! ## The host text the two programs share -/

theorem src_eq : val_main_v3 (F := Ideal) x1 = srcOf (F := Ideal) x1 := rfl
theorem dst_eq : val_main_v6 (F := Ideal) x1 = dstOf (F := Ideal) x1 := rfl
theorem norm_eq : val_main_v32 (F := Ideal) x1 = normOf (F := Ideal) (srcOf x1) (dstOf x1) := rfl

/-- The first layer's gather, scale and scatter-add: the same operations in both programs, of the first product. -/
theorem agg1_eq : val_main_v45 (F := Ideal) x0 x1 x2
    = agg64 (F := Ideal) (srcOf x1) (dstOf x1) (normOf (srcOf x1) (dstOf x1)) (val_main_v33 (F := Ideal) x0 x2) := rfl

/-- The second layer's, of the second product. -/
theorem agg2_eq : val_main_v68 (F := Ideal) x0 x1 x2 x3 x4
    = agg64 (F := Ideal) (srcOf x1) (dstOf x1) (normOf (srcOf x1) (dstOf x1)) (val_main_v56 (F := Ideal) x0 x1 x2 x3 x4) := rfl

/-- The third layer's, at width 40, of the third product. -/
theorem agg3_eq : val_main_v91 (F := Ideal) x0 x1 x2 x3 x4 x5 x6
    = agg40 (F := Ideal) (srcOf x1) (dstOf x1) (normOf (srcOf x1) (dstOf x1)) (val_main_v79 (F := Ideal) x0 x1 x2 x3 x4 x5 x6) := rfl

/-! ## Stage by stage -/

theorem st_p1 : val_main_v33 (F := Ideal) x0 x2 = p1 x0 x2 := dense1 x0 x2

theorem st_a1 : val_main_v45 (F := Ideal) x0 x1 x2 = a1 x0 x1 x2 := by
  rw [agg1_eq, st_p1]; rfl

theorem st_h1 : val_main_v55 (F := Ideal) x0 x1 x2 x3 = h1 x0 x1 x2 x3 := by
  rw [swish1, st_a1]; rfl

theorem st_p2 : val_main_v56 (F := Ideal) x0 x1 x2 x3 x4 = p2 x0 x1 x2 x3 x4 := by
  rw [dense2, st_h1]; rfl

theorem st_a2 : val_main_v68 (F := Ideal) x0 x1 x2 x3 x4 = a2 x0 x1 x2 x3 x4 := by
  rw [agg2_eq, st_p2]; rfl

theorem st_h2 : val_main_v78 (F := Ideal) x0 x1 x2 x3 x4 x5 = h2 x0 x1 x2 x3 x4 x5 := by
  rw [swish2, st_a2]; rfl

theorem st_p3 : val_main_v79 (F := Ideal) x0 x1 x2 x3 x4 x5 x6 = p3 x0 x1 x2 x3 x4 x5 x6 := by
  rw [dense3, st_h2]; rfl

theorem st_a3 : val_main_v91 (F := Ideal) x0 x1 x2 x3 x4 x5 x6 = a3 x0 x1 x2 x3 x4 x5 x6 := by
  rw [agg3_eq, st_p3]; rfl

/-- The reference's result is the kernel's. -/
theorem st_out : val_main_v95 (F := Ideal) x0 x1 x2 x3 x4 x5 x6 x7 = out x0 x1 x2 x3 x4 x5 x6 x7 := by
  rw [logsoftmax3, st_a3]; rfl

end Cert.Proof.Bridge

end
-- ==== Proof.lean ====
/-
  The certificate of a three-layer graph convolution computed by six kernel launches, against its plain reference.

  Each layer is `agg (h · W) + b` followed by a nonlinearity, where `agg` gathers rows along the edges (with one self-loop
  per node), scales each by the symmetric normalisation `deg^(-1/2)[src] · deg^(-1/2)[dst]` and sums them into the rows
  of the edges' targets. The kernel program computes `h · W` in a launch over ten blocks of 10000 rows (the operands
  rounded to bf16 first, which is the identity at the ideal values), leaves `agg` to the host, and computes the bias plus
  `x · logistic x` (layers one and two) or the bias plus a row-wise log-softmax (layer three) in a second launch over
  the same ten blocks. The reference computes everything on the host: a `dot_general` for the product, the logistic
  spelt `1 / (1 + exp (-v))`, and the library's log_softmax.

  On the extended reals the two are one function of the eight argument arrays, with no condition on the arrays:
  * a block of rows of a product is the same rows of the whole product, and a product into a zero accumulator is the
    host's `dot_general` (both are the sum over the contracted axis);
  * the bias row added inside a launch is the bias vector the host broadcasts, entry by entry;
  * `logistic x` is `1 / (1 + exp (-x))` at every extended real;
  * both log-softmaxes are `(v - max v) - log (∑ exp (v - max v))` row by row, the reference taking one more maximum
    with `-∞`, which changes nothing;
  * the host operations for the edge lists, the degrees, the normalisation and each layer's gather-scale-scatter are
    the same text in both programs and are carried as they stand.
  So the precondition (finite float inputs) is never used, and `preserves` asks nothing: the idealization rewrote no
  operation of the kernel.

  The word-level kernel and the idealized kernel run by the generated frame of the six launches; the idealized
  kernel's result array is read off that run's last boundary (KRun, KHost, the six launch modules, KWalk); the
  reference's run is read in two stages over its operation list (RefRun); Bridge identifies the two results.
-/
import proofs.«106903_j8074538516509_1_alg».proof.Defs
import proofs.«106903_j8074538516509_1_alg».proof.Proof.Gen.Kernel
import proofs.«106903_j8074538516509_1_alg».proof.Proof.Gen.Kernel.Skeleton
import proofs.«106903_j8074538516509_1_alg».proof.Proof.Gen.Kernel.Launch
import proofs.«106903_j8074538516509_1_alg».proof.Proof.Gen.Kernel.Points
import proofs.«106903_j8074538516509_1_alg».proof.Proof.Gen.Kernel.Frame
import proofs.«106903_j8074538516509_1_alg».proof.Proof.Gen.KernelIdeal
import proofs.«106903_j8074538516509_1_alg».proof.Proof.Gen.KernelIdeal.Skeleton
import proofs.«106903_j8074538516509_1_alg».proof.Proof.Gen.KernelIdeal.Launch
import proofs.«106903_j8074538516509_1_alg».proof.Proof.Gen.KernelIdeal.Points
import proofs.«106903_j8074538516509_1_alg».proof.Proof.Gen.KernelIdeal.Frame
import proofs.«106903_j8074538516509_1_alg».proof.Proof.Gen.ReferenceIdeal
import proofs.«106903_j8074538516509_1_alg».proof.Proof.Gen.Pre_finite_inputs
import proofs.«106903_j8074538516509_1_alg».proof.Proof.RunP
import proofs.«106903_j8074538516509_1_alg».proof.Proof.ReadP
import proofs.«106903_j8074538516509_1_alg».proof.Proof.RefRun
import proofs.«106903_j8074538516509_1_alg».proof.Proof.KWalk
import proofs.«106903_j8074538516509_1_alg».proof.Proof.Bridge
import Idealize.ShloMosaic.Adequacy
import Idealize.ShloMosaic.Init

noncomputable section

namespace Cert.Proof

open Idealize.ShloMosaic Idealize.SL.Sem

/-- The word-level kernel terminates, faults nowhere and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- So does the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- From memories that agree on the arguments both idealized programs end with one result array: the kernel's at the
    nine-stage function `out` of the arguments, the reference's at its last stage function, which is `out`. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2]
  exact Cert.Proof.Bridge.st_out _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
